-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg7 : FVec F S64 .f32) (main_arg8 : FVec F S64x128 .f32) (main_arg9 : FVec F S128 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S256x128 .f32) (main_arg5 : FVec F S128 .f32) (main_arg6 : FVec F S128x64 .f32) (main_arg7 : FVec F S64 .f32) (main_arg8 : FVec F S64x128 .f32) (main_arg9 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x512 .f32) (main_arg1 : FVec F S4096x4096 .f32) (main_arg2 : FVec F S512x256 .f32) (main_arg3 : FVec F S256 .f32) (main_arg4 : FVec F S256x128 .f32) (main_arg5 : FVec F S128 .f32) (main_arg6 : FVec F S128x64 .f32) (main_arg7 : FVec F S64 .f32) (main_arg8 : FVec F S64x128 .f32) (main_arg9 : FVec F S128 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S4096x512 : Shape := ⟨2, ![4096, 512]⟩
abbrev S4096x4096 : Shape := ⟨2, ![4096, 4096]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S1x256 : Shape := ⟨2, ![1, 256]⟩
abbrev S1x128 : Shape := ⟨2, ![1, 128]⟩
abbrev S1x64 : Shape := ⟨2, ![1, 64]⟩
abbrev S4096x128 : Shape := ⟨2, ![4096, 128]⟩
abbrev S128x4096 : Shape := ⟨2, ![128, 4096]⟩
abbrev S4096x256 : Shape := ⟨2, ![4096, 256]⟩
abbrev S128x256 : Shape := ⟨2, ![128, 256]⟩
abbrev S4096x64 : Shape := ⟨2, ![4096, 64]⟩

abbrev nBuf : Space → Nat
  | .hbm => 20
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S4096x512, .bf16⟩
  | .hbm, ⟨11, _⟩ => ⟨S512x256, .bf16⟩
  | .hbm, ⟨12, _⟩ => ⟨S1x256, .f32⟩
  | .hbm, ⟨13, _⟩ => ⟨S256x128, .bf16⟩
  | .hbm, ⟨14, _⟩ => ⟨S1x128, .f32⟩
  | .hbm, ⟨15, _⟩ => ⟨S128x64, .bf16⟩
  | .hbm, ⟨16, _⟩ => ⟨S1x64, .f32⟩
  | .hbm, ⟨17, _⟩ => ⟨S64x128, .bf16⟩
  | .hbm, ⟨18, _⟩ => ⟨S1x128, .f32⟩
  | .hbm, ⟨19, _⟩ => ⟨S4096x128, .f32⟩
  | .local _ .vmem, ⟨0, _⟩ => ⟨S4096x512, .bf16⟩
  | .local _ .vmem, ⟨1, _⟩ => ⟨S128x4096, .f32⟩
  | .local _ .vmem, ⟨2, _⟩ => ⟨S128x4096, .f32⟩
  | .local _ .vmem, ⟨3, _⟩ => ⟨S512x256, .bf16⟩
  | .local _ .vmem, ⟨4, _⟩ => ⟨S1x256, .f32⟩
  | .local _ .vmem, ⟨5, _⟩ => ⟨S256x128, .bf16⟩
  | .local _ .vmem, ⟨6, _⟩ => ⟨S1x128, .f32⟩
  | .local _ .vmem, ⟨7, _⟩ => ⟨S128x64, .bf16⟩
  | .local _ .vmem, ⟨8, _⟩ => ⟨S1x64, .f32⟩
  | .local _ .vmem, ⟨9, _⟩ => ⟨S64x128, .bf16⟩
  | .local _ .vmem, ⟨10, _⟩ => ⟨S1x128, .f32⟩
  | .local _ .vmem, ⟨11, _⟩ => ⟨S4096x128, .f32⟩
  | .local _ .vmem, ⟨12, _⟩ => ⟨S4096x4096, .bf16⟩
  | .local _ .vmem, ⟨13, _⟩ => ⟨S4096x256, .bf16⟩
  | .local _ .vmem, ⟨14, _⟩ => ⟨S4096x256, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c128_i32 : BitVec 32 := 128#32
  let v9 : BitVec 32 := Scalar.muli arg0 c128_i32
  let v12 : Index := Scalar.indexCast v9
  let c0_5 : Index := 0#32
  ![v12.toNat, 0]
def k0_off2 (i : grid0.Coords) : Fin 2 → Nat :=
  let arg0 : BitVec 32 := BitVec.ofNat 32 (i 0).val
  let c128_i32 : BitVec 32 := 128#32
  let v9 : BitVec 32 := Scalar.muli arg0 c128_i32
  let v25 : Index := Scalar.indexCast v9
  let c0_11 : Index := 0#32
  ![v25.toNat, 0]
def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

class Facts₀ : Prop where
  bitsLt_bf16_f32 : FTy.bits .bf16 < FTy.bits .f32
  shapeCasts_S256_S1x256 : S256.ShapeCasts S1x256
  shapeCasts_S128_S1x128 : S128.ShapeCasts S1x128
  shapeCasts_S64_S1x64 : S64.ShapeCasts S1x64
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  h_S128x256 : 0 < S128x256.numel
  shapeCasts_S128x256_S128x256 : S128x256.ShapeCasts S128x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S4096x256_S4096x128_0_0 : ∀ a, (![0, 0] : Fin 2 → Nat) a + S4096x128.size a ≤ S4096x256.size a
  h_S4096x128 : 0 < S4096x128.numel
  shapeCasts_S4096x128_S4096x128 : S4096x128.ShapeCasts S4096x128
  packedbf16_S4096x256_S4096x128_0_0 : (Rect.unit (s := S4096x256) ![0, 0] S4096x128.size inb_S4096x256_S4096x128_0_0).PackedRows (EltTy.packing .bf16)
  inb_S4096x4096_S4096x4096_0_0 : ∀ a, (![0, 0] : Fin 2 → Nat) a + S4096x4096.size a ≤ S4096x4096.size a
  h_S4096x4096 : 0 < S4096x4096.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S4096x256_S4096x64_0_128 : ∀ a, (![0, 128] : Fin 2 → Nat) a + S4096x64.size a ≤ S4096x256.size a
  h_S4096x64 : 0 < S4096x64.numel
  shapeCasts_S4096x64_S4096x64 : S4096x64.ShapeCasts S4096x64
  packedbf16_S4096x256_S4096x64_0_128 : (Rect.unit (s := S4096x256) ![0, 128] S4096x64.size inb_S4096x256_S4096x64_0_128).PackedRows (EltTy.packing .bf16)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S4096x128_S4096x128_0_0 : ∀ a, (![0, 0] : Fin 2 → Nat) a + S4096x128.size a ≤ S4096x128.size a
  dot_S4096x512_S512x256_S4096x256_1_0_0_1_n_n_wf : DotDims.WF S4096x512 S512x256 S4096x256 [1] [0] [0] [1] [] []
  dot_S128x4096_S4096x256_S128x256_1_0_0_1_n_n_wf : DotDims.WF S128x4096 S4096x256 S128x256 [1] [0] [0] [1] [] []
  dot_S4096x256_S256x128_S4096x128_1_0_0_1_n_n_wf : DotDims.WF S4096x256 S256x128 S4096x128 [1] [0] [0] [1] [] []
  dot_S4096x4096_S4096x128_S4096x128_1_0_0_1_n_n_wf : DotDims.WF S4096x4096 S4096x128 S4096x128 [1] [0] [0] [1] [] []
  dot_S4096x128_S128x64_S4096x64_1_0_0_1_n_n_wf : DotDims.WF S4096x128 S128x64 S4096x64 [1] [0] [0] [1] [] []
  dot_S4096x4096_S4096x64_S4096x64_1_0_0_1_n_n_wf : DotDims.WF S4096x4096 S4096x64 S4096x64 [1] [0] [0] [1] [] []
  dot_S4096x64_S64x128_S4096x128_1_0_0_1_n_n_wf : DotDims.WF S4096x64 S64x128 S4096x128 [1] [0] [0] [1] [] []
  hrank0 : 0 < grid0.rank
  k0_off1_inb : ∀ i : grid0.Coords, ∀ (k0_h2 : k0_cond2 i = 1#1), ∀ a, (k0_off1 i) a + S128x4096.size a ≤ S4096x4096.size a
  k0_off1_packedbf16 : ∀ i : grid0.Coords, ∀ (k0_h2 : k0_cond2 i = 1#1), (Rect.unit (s := S4096x4096) (k0_off1 i) S128x4096.size (k0_off1_inb i k0_h2)).PackedRows (EltTy.packing .bf16)
  k0_off2_inb : ∀ i : grid0.Coords, ∀ (k0_h2 : k0_cond2 i = 1#1), ∀ a, (k0_off2 i) a + S128x256.size a ≤ S4096x256.size a
  k0_off2_packedbf16 : ∀ i : grid0.Coords, ∀ (k0_h2 : k0_cond2 i = 1#1), (Rect.unit (s := S4096x256) (k0_off2 i) S128x256.size (k0_off2_inb i k0_h2)).PackedRows (EltTy.packing .bf16)
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .bf16 = 32 ∨ (Rect.block (s := S4096x512) S4096x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .f32 = 32 ∨ (Rect.block (s := S4096x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .bf16 = 32 ∨ (Rect.block (s := S128x64) S128x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S64x128.size a
  hwx0_8 : ∀ i : grid0.Coords, EltTy.bits .bf16 = 32 ∨ (Rect.block (s := S64x128) S64x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4096x128.size a ≤ S4096x128.size a
  hwx0_10 : ∀ i : grid0.Coords, EltTy.bits .f32 = 32 ∨ (Rect.block (s := S4096x128) S4096x128.size (cc0_transform_10 i) (hinb0_10 i)).WholeWords (EltTy.packing .f32)

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S128x4096_S4096x256_S128x256_1_0_0_1_n_n : DotDims S128x4096 S4096x256 S128x256 where
  lhsContracting := [1]
  rhsContracting := [0]
  lhsNonContracting := [0]
  rhsNonContracting := [1]
  lhsBatch := []
  rhsBatch := []
  wf := dot_S128x4096_S4096x256_S128x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf

abbrev win0_0 : Pipeline.Window sig grid0 :=
  Pipeline.Window.ofSpec (Memref.whole main_v0) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S64x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S4096x128.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond3 i == 1#1) | ⟨_ + 11, h⟩ => absurd h (Nat.not_lt.2 (Nat.le_add_left _ _))

class Facts : Prop extends Facts₀ where

variable [Facts]
-- ==== ReferenceIdeal.lean ====
abbrev S4096x512 : Shape := ⟨2, ![4096, 512]⟩
abbrev S4096x4096 : Shape := ⟨2, ![4096, 4096]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S4096x256 : Shape := ⟨2, ![4096, 256]⟩
abbrev S1x256 : Shape := ⟨2, ![1, 256]⟩
abbrev S_ : Shape := ⟨0, ![]⟩
abbrev S4096x128 : Shape := ⟨2, ![4096, 128]⟩
abbrev S1x128 : Shape := ⟨2, ![1, 128]⟩
abbrev S4096x64 : Shape := ⟨2, ![4096, 64]⟩
abbrev S1x64 : Shape := ⟨2, ![1, 64]⟩

abbrev nBuf : Space → Nat
  | .hbm => 42
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S4096x256, .f32⟩
  | .hbm, ⟨11, _⟩ => ⟨S4096x256, .f32⟩
  | .hbm, ⟨12, _⟩ => ⟨S1x256, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S4096x256, .f32⟩
  | .hbm, ⟨17, _⟩ => ⟨S4096x256, .f32⟩
  | .hbm, ⟨18, _⟩ => ⟨S4096x128, .f32⟩
  | .hbm, ⟨19, _⟩ => ⟨S4096x128, .f32⟩
  | .hbm, ⟨20, _⟩ => ⟨S1x128, .f32⟩
  | .hbm, ⟨21, _⟩ => ⟨S4096x128, .f32⟩
  | .hbm, ⟨22, _⟩ => ⟨S4096x128, .f32⟩
  | .hbm, ⟨23, _⟩ => ⟨S_, .f32⟩
  | .hbm, ⟨24, _⟩ => ⟨S4096x128, .f32⟩
  | .hbm, ⟨25, _⟩ => ⟨S4096x128, .f32⟩
  | .hbm, ⟨26, _⟩ => ⟨S4096x64, .f32⟩
  | .hbm, ⟨27, _⟩ => ⟨S4096x64, .f32⟩
  | .hbm, ⟨28, _⟩ => ⟨S1x64, .f32⟩
  | .hbm, ⟨29, _⟩ => ⟨S4096x64, .f32⟩
  | .hbm, ⟨30, _⟩ => ⟨S4096x64, .f32⟩
  | .hbm, ⟨31, _⟩ => ⟨S_, .f32⟩
  | .hbm, ⟨32, _⟩ => ⟨S4096x64, .f32⟩
  | .hbm, ⟨33, _⟩ => ⟨S4096x64, .f32⟩
  | .hbm, ⟨34, _⟩ => ⟨S4096x128, .f32⟩
  | .hbm, ⟨35, _⟩ => ⟨S4096x128, .f32⟩
  | .hbm, ⟨36, _⟩ => ⟨S1x128, .f32⟩
  | .hbm, ⟨37, _⟩ => ⟨S4096x128, .f32⟩
  | .hbm, ⟨38, _⟩ => ⟨S4096x128, .f32⟩
  | .hbm, ⟨39, _⟩ => ⟨S_, .f32⟩
  | .hbm, ⟨40, _⟩ => ⟨S4096x128, .f32⟩
  | .hbm, ⟨41, _⟩ => ⟨S4096x128, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call2_cst : Ref sig .tc := ⟨.hbm, 31, rfl⟩
abbrev main_call2_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call3_cst : Ref sig .tc := ⟨.hbm, 39, rfl⟩
abbrev main_call3_v0 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  dot_S4096x512_S512x256_S4096x256_1_0_0_1_n_n_wf : DotDims.WF S4096x512 S512x256 S4096x256 [1] [0] [0] [1] [] []
  dot_S4096x4096_S4096x256_S4096x256_1_0_0_1_n_n_wf : DotDims.WF S4096x4096 S4096x256 S4096x256 [1] [0] [0] [1] [] []
  dot_S4096x256_S256x128_S4096x128_1_0_0_1_n_n_wf : DotDims.WF S4096x256 S256x128 S4096x128 [1] [0] [0] [1] [] []
  dot_S4096x4096_S4096x128_S4096x128_1_0_0_1_n_n_wf : DotDims.WF S4096x4096 S4096x128 S4096x128 [1] [0] [0] [1] [] []
  dot_S4096x128_S128x64_S4096x64_1_0_0_1_n_n_wf : DotDims.WF S4096x128 S128x64 S4096x64 [1] [0] [0] [1] [] []
  dot_S4096x4096_S4096x64_S4096x64_1_0_0_1_n_n_wf : DotDims.WF S4096x4096 S4096x64 S4096x64 [1] [0] [0] [1] [] []
  dot_S4096x64_S64x128_S4096x128_1_0_0_1_n_n_wf : DotDims.WF S4096x64 S64x128 S4096x128 [1] [0] [0] [1] [] []

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf

class Facts : Prop extends Facts₀ where

variable [Facts]
-- ==== Proof.KWShared.lean ====
/-
  What the three control cases of the body share. The grid has 33 points. At point 0 the body forms x·W1 and stores it
  whole into the second scratch; at every point t < 32 it rounds rows [128t, 128t+128) of the adjacency into the first
  scratch and stores the rectified rows adj_t·(x·W1) + b1 into the same rows of the third scratch; at point 32 it runs
  layers two to four out of the scratches and stores the result block whole. The three branch conditions are scalar
  chains over the grid coordinate, decided here over all 33 points.
-/
import proofs.«156455_g48490180772547_cont_8to1_c_629_4_alg».proof.Proof.Gen.Kernel.Frame
import proofs.«156455_g48490180772547_cont_8to1_c_629_4_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch (the product x·W1) is taken at point 0 only. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-- The second branch (one block of rows of layer one) is taken at the points before the last. -/
abbrev cond1 (i : grid0.Coords) : Prop := k0_cond2 i = 1#1
theorem hcond1 : ∀ t : Fin cfg0.N, cond1 (grid0.coords t) ↔ t.val < 32 :=
  (by decide +kernel : ∀ t : Fin grid0.N, cond1 (grid0.coords t) ↔ t.val < 32)

/-- The third branch (layers two to four) is taken at the last point only. -/
abbrev cond2 (i : grid0.Coords) : Prop := k0_cond3 i = 1#1
theorem hcond2 : ∀ t : Fin cfg0.N, cond2 (grid0.coords t) ↔ t.val = 32 :=
  (by decide +kernel : ∀ t : Fin grid0.N, cond2 (grid0.coords t) ↔ t.val = 32)

/-- The rows the second branch stores at point t start at 128·t, in both scratches. -/
theorem hoff1 : ∀ t : Fin cfg0.N, k0_off1 (grid0.coords t) = ![128 * t.val, 0] :=
  (by decide +kernel : ∀ t : Fin grid0.N, k0_off1 (grid0.coords t) = ![128 * t.val, 0])
theorem hoff2 : ∀ t : Fin cfg0.N, k0_off2 (grid0.coords t) = ![128 * t.val, 0] :=
  (by decide +kernel : ∀ t : Fin grid0.N, k0_off2 (grid0.coords t) = ![128 * t.val, 0])

/-! ## Where the windows are idle -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
theorem liveAt7 : ∀ t : Fin cfg0.N, cfg0.idle 7 (grid0.coords t) = false := by decide +kernel
theorem liveAt8 : ∀ t : Fin cfg0.N, cfg0.idle 8 (grid0.coords t) = false := by decide +kernel
theorem liveAt9 : ∀ t : Fin cfg0.N, cfg0.idle 9 (grid0.coords t) = false := by decide +kernel
/-- The result window is idle, and not written back, at every point but the last. -/
theorem idleAt10 : ∀ t : Fin cfg0.N, ¬cond2 (grid0.coords t) → cfg0.idle 10 (grid0.coords t) = true := by decide +kernel
theorem noFlush10 : ∀ t : Fin cfg0.N, ¬cond2 (grid0.coords t) → (cfg0.win 10).flush t = false := by decide +kernel
theorem liveAt10 : ∀ t : Fin cfg0.N, cond2 (grid0.coords t) → cfg0.idle 10 (grid0.coords t) = false := by decide +kernel

/-! ## The memrefs the body is called with -/
abbrev ms0 (t : Fin cfg0.N) : Memref sig .tc .vmem S4096x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x64 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S64x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S4096x128 .f32 := win0_10.stage (cfg0.slots t 10)
abbrev hs10 (t : Fin cfg0.N) : (ms10 t).IsWhole := hstage0_10 ((cfg0.slots t 10).cast nbuf0_10)
/-- The three scratch operands: the rounded adjacency, the products h·W, the rectified layers. -/
abbrev scA : Memref sig .tc .vmem S4096x4096 .bf16 := Memref.whole cc0_scratch0
abbrev scG : Memref sig .tc .vmem S4096x256 .bf16 := Memref.whole cc0_scratch1
abbrev scH : Memref sig .tc .vmem S4096x256 .bf16 := Memref.whole cc0_scratch2

/-- The class invariant with the three scratch operands as memrefs owned at some contents. -/
theorem PhiA_eq (c : Dev nD) :
    (Pipeline.ΦA spec0 c : sProp 𝕄)
      = iprop(iprop((∃ d, owns (c : Thread nD τ) scA fullShare d) ∗ (∃ d, owns (c : Thread nD τ) scG fullShare d) ∗ (∃ d, owns (c : Thread nD τ) scH fullShare d)) ∗ (∃ r, prngReg c r)) := by
  unfold Pipeline.ΦA; rw [scopedRest0_eq]; simp only [scA, scG, scH, owns_whole]; try rfl

end Cert.Kernel.Body

end
-- ==== Proof.LibWholeStore.lean ====
/-
  A store through the rectangle of the whole shape at zero offsets, made last, leaves its payload at every index,
  whatever the buffer held and whatever the earlier stores were: every index lies in that rectangle, at its own position.
-/
import Idealize.ShloMosaic.Lib.WritesUnit

namespace Idealize.ShloMosaic.View

variable {sig : RefSig} {κ : Kind} {sp : Space} {S : Shape} {e : EltTy} {Val : EltTy → Type}

/-- Reading back a buffer whose newest store covers the whole shape from offset zero gives that store's payload. -/
theorem read_writes_cons_whole (v : View sig κ sp S e) (f : v.ty.Contents Val) {off : Fin S.rank → Nat}
    (h : off = fun _ => 0) (inb : ∀ a, off a + S.size a ≤ S.size a) (w : S.Idx → Val e) (L : List (Piece Val S e)) :
    v.read Val (v.writes Val f ((⟨Rect.unit off S.size inb, w⟩ : Piece Val S e) :: L)) = w := by
  funext y
  exact read_writes_cons_unit_of_mem v f inb w L y y h fun a => (Nat.zero_add _).symm

/-- The two-dimensional zero offsets, however spelt, are the constant zero. -/
theorem zero2 : (![0, 0] : Fin 2 → Nat) = fun _ => 0 := funext fun a => by fin_cases a <;> rfl

end Idealize.ShloMosaic.View
-- ==== Proof.KWRunA.lean ====
/-
  The body at point 0. Both of its first two branches run: the product x·W1 is stored whole into the second scratch, read
  back, and used for the first block of rows: the rounded rows of the adjacency go into rows [0, 128) of the first scratch,
  the rectified rows adj_0·(x·W1) + b1 into rows [0, 128) of the third. Every other buffer is left as found.
-/
import proofs.«156455_g48490180772547_cont_8to1_c_629_4_alg».proof.Proof.KWShared
import proofs.«156455_g48490180772547_cont_8to1_c_629_4_alg».proof.Proof.LibWholeStore
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runA (c : Dev nD) (i : grid0.Coords) (arg1 : Memref sig .tc .vmem S4096x512 .bf16) (harg1 : arg1.IsWhole) (arg2 : Memref sig .tc .vmem S128x4096 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S64x128 .bf16) (harg9 : arg9.IsWhole) (arg10 : Memref sig .tc .vmem S1x128 .f32) (harg10 : arg10.IsWhole) (arg11 : Memref sig .tc .vmem S4096x128 .f32) (harg11 : arg11.IsWhole) (arg12 : Memref sig .tc .vmem S4096x4096 .bf16) (harg12 : arg12.IsWhole) (arg13 : Memref sig .tc .vmem S4096x256 .bf16) (harg13 : arg13.IsWhole) (arg14 : Memref sig .tc .vmem S4096x256 .bf16) (harg14 : arg14.IsWhole) (hc0 : cond0 i) (hc1 : cond1 i) (hc2 : ¬cond2 i)
    (x0 : Vec F S4096x512 .bf16) (x1 : Vec F S128x4096 .f32) (x2 : Vec F S512x256 .bf16) (x3 : Vec F S1x256 .f32) (x4 : Vec F S256x128 .bf16) (x5 : Vec F S1x128 .f32) (x6 : Vec F S128x64 .bf16) (x7 : Vec F S1x64 .f32) (x8 : Vec F S64x128 .bf16) (x9 : Vec F S1x128 .f32) (xo : Vec F S4096x128 .f32) (xa : Vec F S4096x4096 .bf16) (xg : Vec F S4096x256 .bf16) (xh : Vec F S4096x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ owns (c : Thread nD τ) arg12 fullShare xa ∗ owns (c : Thread nD τ) arg13 fullShare xg ∗ owns (c : Thread nD τ) arg14 fullShare xh
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ owns (c : Thread nD τ) arg12 fullShare (arg12.view.read (Elt F) (arg12.view.writes (Elt F) (harg12.unread xa) [(⟨Rect.unit (k0_off1 i) S128x4096.size (k0_off1_inb i hc1), k0_pay3 x1⟩ : View.Piece (Elt F) S4096x4096 .bf16)])) ∗ owns (c : Thread nD τ) arg13 fullShare (k0_pay1 x0 x2) ∗ owns (c : Thread nD τ) arg14 fullShare (arg14.view.read (Elt F) (arg14.view.writes (Elt F) (harg14.unread xh) [(⟨Rect.unit (k0_off2 i) S128x256.size (k0_off2_inb i hc1), k0_pay4 x1 (k0_pay1 x0 x2) x3⟩ : View.Piece (Elt F) S4096x256 .bf16)]))) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact hc0 | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4096x512) View.zero2, View.ld_unit_zero (S := S128x4096) View.zero2, View.ld_unit_zero (S := S512x256) View.zero2, View.ld_unit_zero (S := S1x256) View.zero2, View.ld_unit_zero (S := S256x128) View.zero2, View.ld_unit_zero (S := S1x128) View.zero2, View.ld_unit_zero (S := S128x64) View.zero2, View.ld_unit_zero (S := S1x64) View.zero2, View.ld_unit_zero (S := S64x128) View.zero2, View.ld_unit_zero (S := S4096x128) View.zero2, View.ld_unit_zero (S := S4096x4096) View.zero2, View.ld_unit_zero (S := S4096x256) View.zero2]
  isplitl [H13]
  · iexists _; isplitr; swap; · iexact H13
    ipureintro
    sl_unfold_words
    rw [View.read_writes_cons_whole (S := S4096x256) _ _ View.zero2]
    simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4096x512) View.zero2, View.ld_unit_zero (S := S128x4096) View.zero2, View.ld_unit_zero (S := S512x256) View.zero2, View.ld_unit_zero (S := S1x256) View.zero2, View.ld_unit_zero (S := S256x128) View.zero2, View.ld_unit_zero (S := S1x128) View.zero2, View.ld_unit_zero (S := S128x64) View.zero2, View.ld_unit_zero (S := S1x64) View.zero2, View.ld_unit_zero (S := S64x128) View.zero2, View.ld_unit_zero (S := S4096x128) View.zero2, View.ld_unit_zero (S := S4096x4096) View.zero2, View.ld_unit_zero (S := S4096x256) View.zero2]
  iexists _; isplitr; swap; · iexact H14
  ipureintro
  sl_unfold_words
  simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4096x512) View.zero2, View.ld_unit_zero (S := S128x4096) View.zero2, View.ld_unit_zero (S := S512x256) View.zero2, View.ld_unit_zero (S := S1x256) View.zero2, View.ld_unit_zero (S := S256x128) View.zero2, View.ld_unit_zero (S := S1x128) View.zero2, View.ld_unit_zero (S := S128x64) View.zero2, View.ld_unit_zero (S := S1x64) View.zero2, View.ld_unit_zero (S := S64x128) View.zero2, View.ld_unit_zero (S := S4096x128) View.zero2, View.ld_unit_zero (S := S4096x4096) View.zero2, View.ld_unit_zero (S := S4096x256) View.zero2]

end Cert.Kernel.Body

end
-- ==== Proof.KWRunB.lean ====
/-
  The body at a point t with 0 < t < 32. Only the second branch runs: the rounded rows of the adjacency block go into
  rows [128t, 128t+128) of the first scratch, and the rectified rows adj_t·g + b1, with g the contents of the second
  scratch, into the same rows of the third. Every other buffer is left as found.
-/
import proofs.«156455_g48490180772547_cont_8to1_c_629_4_alg».proof.Proof.KWShared
import proofs.«156455_g48490180772547_cont_8to1_c_629_4_alg».proof.Proof.LibWholeStore
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runB (c : Dev nD) (i : grid0.Coords) (arg1 : Memref sig .tc .vmem S4096x512 .bf16) (harg1 : arg1.IsWhole) (arg2 : Memref sig .tc .vmem S128x4096 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S64x128 .bf16) (harg9 : arg9.IsWhole) (arg10 : Memref sig .tc .vmem S1x128 .f32) (harg10 : arg10.IsWhole) (arg11 : Memref sig .tc .vmem S4096x128 .f32) (harg11 : arg11.IsWhole) (arg12 : Memref sig .tc .vmem S4096x4096 .bf16) (harg12 : arg12.IsWhole) (arg13 : Memref sig .tc .vmem S4096x256 .bf16) (harg13 : arg13.IsWhole) (arg14 : Memref sig .tc .vmem S4096x256 .bf16) (harg14 : arg14.IsWhole) (hc0 : ¬cond0 i) (hc1 : cond1 i) (hc2 : ¬cond2 i)
    (x0 : Vec F S4096x512 .bf16) (x1 : Vec F S128x4096 .f32) (x2 : Vec F S512x256 .bf16) (x3 : Vec F S1x256 .f32) (x4 : Vec F S256x128 .bf16) (x5 : Vec F S1x128 .f32) (x6 : Vec F S128x64 .bf16) (x7 : Vec F S1x64 .f32) (x8 : Vec F S64x128 .bf16) (x9 : Vec F S1x128 .f32) (xo : Vec F S4096x128 .f32) (xa : Vec F S4096x4096 .bf16) (xg : Vec F S4096x256 .bf16) (xh : Vec F S4096x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ owns (c : Thread nD τ) arg12 fullShare xa ∗ owns (c : Thread nD τ) arg13 fullShare xg ∗ owns (c : Thread nD τ) arg14 fullShare xh
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ owns (c : Thread nD τ) arg12 fullShare (arg12.view.read (Elt F) (arg12.view.writes (Elt F) (harg12.unread xa) [(⟨Rect.unit (k0_off1 i) S128x4096.size (k0_off1_inb i hc1), k0_pay3 x1⟩ : View.Piece (Elt F) S4096x4096 .bf16)])) ∗ owns (c : Thread nD τ) arg13 fullShare xg ∗ owns (c : Thread nD τ) arg14 fullShare (arg14.view.read (Elt F) (arg14.view.writes (Elt F) (harg14.unread xh) [(⟨Rect.unit (k0_off2 i) S128x256.size (k0_off2_inb i hc1), k0_pay4 x1 xg x3⟩ : View.Piece (Elt F) S4096x256 .bf16)]))) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact hc0 | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4096x512) View.zero2, View.ld_unit_zero (S := S128x4096) View.zero2, View.ld_unit_zero (S := S512x256) View.zero2, View.ld_unit_zero (S := S1x256) View.zero2, View.ld_unit_zero (S := S256x128) View.zero2, View.ld_unit_zero (S := S1x128) View.zero2, View.ld_unit_zero (S := S128x64) View.zero2, View.ld_unit_zero (S := S1x64) View.zero2, View.ld_unit_zero (S := S64x128) View.zero2, View.ld_unit_zero (S := S4096x128) View.zero2, View.ld_unit_zero (S := S4096x4096) View.zero2, View.ld_unit_zero (S := S4096x256) View.zero2]
  isplitl [H13]
  · iexists _; isplitr; · ipureintro; exact harg13.read_unread _
    iexact H13
  iexists _; isplitr; swap; · iexact H14
  ipureintro
  simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4096x512) View.zero2, View.ld_unit_zero (S := S128x4096) View.zero2, View.ld_unit_zero (S := S512x256) View.zero2, View.ld_unit_zero (S := S1x256) View.zero2, View.ld_unit_zero (S := S256x128) View.zero2, View.ld_unit_zero (S := S1x128) View.zero2, View.ld_unit_zero (S := S128x64) View.zero2, View.ld_unit_zero (S := S1x64) View.zero2, View.ld_unit_zero (S := S64x128) View.zero2, View.ld_unit_zero (S := S4096x128) View.zero2, View.ld_unit_zero (S := S4096x4096) View.zero2, View.ld_unit_zero (S := S4096x256) View.zero2]

end Cert.Kernel.Body

end
-- ==== Proof.KWRunC.lean ====
/-
  The body at the last point. Only the third branch runs: layers two to four, each a product h·W stored into columns of
  the second scratch and read back, then the rectified adj·(h·W) + b stored into columns of the third scratch and read
  back, the adjacency read from the first scratch each time; the last layer's result is stored whole into the result
  block. The result is one composed term of what the first and third scratches and the weight and bias blocks held.
-/
import proofs.«156455_g48490180772547_cont_8to1_c_629_4_alg».proof.Proof.KWShared
import proofs.«156455_g48490180772547_cont_8to1_c_629_4_alg».proof.Proof.LibWholeStore
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runC (c : Dev nD) (i : grid0.Coords) (arg1 : Memref sig .tc .vmem S4096x512 .bf16) (harg1 : arg1.IsWhole) (arg2 : Memref sig .tc .vmem S128x4096 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S64x128 .bf16) (harg9 : arg9.IsWhole) (arg10 : Memref sig .tc .vmem S1x128 .f32) (harg10 : arg10.IsWhole) (arg11 : Memref sig .tc .vmem S4096x128 .f32) (harg11 : arg11.IsWhole) (arg12 : Memref sig .tc .vmem S4096x4096 .bf16) (harg12 : arg12.IsWhole) (arg13 : Memref sig .tc .vmem S4096x256 .bf16) (harg13 : arg13.IsWhole) (arg14 : Memref sig .tc .vmem S4096x256 .bf16) (harg14 : arg14.IsWhole) (hc0 : ¬cond0 i) (hc1 : ¬cond1 i) (hc2 : cond2 i)
    (x0 : Vec F S4096x512 .bf16) (x1 : Vec F S128x4096 .f32) (x2 : Vec F S512x256 .bf16) (x3 : Vec F S1x256 .f32) (x4 : Vec F S256x128 .bf16) (x5 : Vec F S1x128 .f32) (x6 : Vec F S128x64 .bf16) (x7 : Vec F S1x64 .f32) (x8 : Vec F S64x128 .bf16) (x9 : Vec F S1x128 .f32) (xo : Vec F S4096x128 .f32) (xa : Vec F S4096x4096 .bf16) (xg : Vec F S4096x256 .bf16) (xh : Vec F S4096x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ owns (c : Thread nD τ) arg12 fullShare xa ∗ owns (c : Thread nD τ) arg13 fullShare xg ∗ owns (c : Thread nD τ) arg14 fullShare xh
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (k0_pay7 xa (k0_pay6 (k0_pay5 xa (k0_pay10 (k0_pay9 xa (k0_pay8 xh x4) x5) x6) x7) x8) x9) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact hc0 | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    sl_unfold_words
    rw [View.read_writes_cons_whole (S := S4096x128) _ _ View.zero2]
    simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4096x512) View.zero2, View.ld_unit_zero (S := S128x4096) View.zero2, View.ld_unit_zero (S := S512x256) View.zero2, View.ld_unit_zero (S := S1x256) View.zero2, View.ld_unit_zero (S := S256x128) View.zero2, View.ld_unit_zero (S := S1x128) View.zero2, View.ld_unit_zero (S := S128x64) View.zero2, View.ld_unit_zero (S := S1x64) View.zero2, View.ld_unit_zero (S := S64x128) View.zero2, View.ld_unit_zero (S := S4096x128) View.zero2, View.ld_unit_zero (S := S4096x4096) View.zero2, View.ld_unit_zero (S := S4096x256) View.zero2]
  isplitl [H12]
  · iexists _; iexists _; isplitr; swap; · iexact H12
    ipureintro; rfl
  isplitl [H13]
  · iexists _; iexists _; isplitr; swap; · iexact H13
    ipureintro; rfl
  iexists _; iexists _; isplitr; swap; · iexact H14
  ipureintro; rfl

end Cert.Kernel.Body

end
-- ==== Proof.KWBody.lean ====
/-
  The frame of the fused graph-convolution kernel, and what its result block holds. The body keeps three scratch buffers
  between grid points. After the points before n (n ≤ 32): rows [0, 128n) of the first scratch hold the rounded adjacency
  rows, block by block; from n = 1 on the second scratch holds the product x·W1; rows [0, 128n) of the third scratch hold
  the rectified first layer, block by block; the rows from 128n on hold whatever they held. This is stated as a relation
  on the scratch contents (the rows not yet stored are arbitrary), carried by the region invariant. At point 32 every row
  is stored, so the two scratches are the whole arrays, and the last branch's result is one term of them and of the weight
  and bias blocks: the result window's block, written back at that point only.
-/
import proofs.«156455_g48490180772547_cont_8to1_c_629_4_alg».proof.Proof.KWRunA
import proofs.«156455_g48490180772547_cont_8to1_c_629_4_alg».proof.Proof.KWRunB
import proofs.«156455_g48490180772547_cont_8to1_c_629_4_alg».proof.Proof.KWRunC
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem hN : cfg0.N = 33 := N_0

/-! ## The windows' blocks at their vector types -/
def bX (c : Dev nD) (t : Fin cfg0.N) : Vec F S4096x512 .bf16 := iblk m c 0 t
def bAdj (c : Dev nD) (t : Fin cfg0.N) : Vec F S128x4096 .f32 := iblk m c 1 t
def bW1 (c : Dev nD) (t : Fin cfg0.N) : Vec F S512x256 .bf16 := iblk m c 2 t
def bB1 (c : Dev nD) (t : Fin cfg0.N) : Vec F S1x256 .f32 := iblk m c 3 t
def bW2 (c : Dev nD) (t : Fin cfg0.N) : Vec F S256x128 .bf16 := iblk m c 4 t
def bB2 (c : Dev nD) (t : Fin cfg0.N) : Vec F S1x128 .f32 := iblk m c 5 t
def bW3 (c : Dev nD) (t : Fin cfg0.N) : Vec F S128x64 .bf16 := iblk m c 6 t
def bB3 (c : Dev nD) (t : Fin cfg0.N) : Vec F S1x64 .f32 := iblk m c 7 t
def bW4 (c : Dev nD) (t : Fin cfg0.N) : Vec F S64x128 .bf16 := iblk m c 8 t
def bB4 (c : Dev nD) (t : Fin cfg0.N) : Vec F S1x128 .f32 := iblk m c 9 t

/-- The first grid point. -/
def t0 : Fin cfg0.N := ⟨0, by rw [hN]; omega⟩
/-- The grid point that stores row r. -/
def tOf (r : ℕ) (h : r < 4096) : Fin cfg0.N := ⟨r / 128, by rw [hN]; omega⟩

/-! ## What the scratches hold once stored -/

/-- The rounded adjacency, row block by row block. -/
def Afull (c : Dev nD) : Vec F S4096x4096 .bf16 := fun y =>
  k0_pay3 (bAdj m c (tOf (y 0).val (idx2_lt0 y))) (ix2 ⟨(y 0).val % 128, Nat.mod_lt _ (by norm_num)⟩ ⟨(y 1).val, idx2_lt1 y⟩)
/-- The product x·W1, formed at the first point. -/
def G1 (c : Dev nD) : Vec F S4096x256 .bf16 := k0_pay1 (bX m c t0) (bW1 m c t0)
/-- The rectified first layer, row block by row block. -/
def H1full (c : Dev nD) : Vec F S4096x256 .bf16 := fun y =>
  k0_pay4 (bAdj m c (tOf (y 0).val (idx2_lt0 y))) (G1 m c) (bB1 m c (tOf (y 0).val (idx2_lt0 y)))
    (ix2 ⟨(y 0).val % 128, Nat.mod_lt _ (by norm_num)⟩ ⟨(y 1).val, idx2_lt1 y⟩)
/-- The result block: layers two to four of the whole first layer. -/
def outV (c : Dev nD) (t : Fin cfg0.N) : Vec F S4096x128 .f32 :=
  k0_pay7 (Afull m c) (k0_pay6 (k0_pay5 (Afull m c) (k0_pay10 (k0_pay9 (Afull m c) (k0_pay8 (H1full m c) (bW2 m c t)) (bB2 m c t)) (bW3 m c t)) (bB3 m c t)) (bW4 m c t)) (bB4 m c t)

/-- The relation the scratch contents satisfy before point n. -/
def Inv (c : Dev nD) (n : ℕ) (a : Vec F S4096x4096 .bf16) (g h : Vec F S4096x256 .bf16) : Prop :=
  n ≤ 32 → ((∀ y : S4096x4096.Idx, (y 0).val < 128 * n → a y = Afull m c y) ∧ (0 < n → g = G1 m c)
    ∧ (∀ y : S4096x256.Idx, (y 0).val < 128 * n → h y = H1full m c y))

/-- One more block of rows: the step of the relation at a point t < 32, for any view of the two row-stored scratches. -/
theorem inv_step (c : Dev nD) (t : Fin cfg0.N) (ht : t.val < 32) (a : Vec F S4096x4096 .bf16) (g h : Vec F S4096x256 .bf16)
    (hinv : Inv m c t.val a g h) (g' : Vec F S4096x256 .bf16) (hg' : g' = G1 m c)
    (x1 : Vec F S128x4096 .f32) (hx1 : x1 = bAdj m c t) (x3 : Vec F S1x256 .f32) (hx3 : x3 = bB1 m c t)
    (gp : Vec F S4096x256 .bf16) (hgp : gp = G1 m c)
    (arg12 : Memref sig .tc .vmem S4096x4096 .bf16) (harg12 : arg12.IsWhole)
    (arg14 : Memref sig .tc .vmem S4096x256 .bf16) (harg14 : arg14.IsWhole)
    (inb1 : ∀ a, (k0_off1 (grid0.coords t)) a + S128x4096.size a ≤ S4096x4096.size a)
    (inb2 : ∀ a, (k0_off2 (grid0.coords t)) a + S128x256.size a ≤ S4096x256.size a) :
    Inv m c (t.val + 1)
      (arg12.view.read (Elt F) (arg12.view.writes (Elt F) (harg12.unread a) [(⟨Rect.unit (k0_off1 (grid0.coords t)) S128x4096.size inb1, k0_pay3 x1⟩ : View.Piece (Elt F) S4096x4096 .bf16)]))
      g'
      (arg14.view.read (Elt F) (arg14.view.writes (Elt F) (harg14.unread h) [(⟨Rect.unit (k0_off2 (grid0.coords t)) S128x256.size inb2, k0_pay4 x1 gp x3⟩ : View.Piece (Elt F) S4096x256 .bf16)])) := by
  subst hx1 hx3 hgp
  intro _
  have hI := hinv (by omega)
  refine ⟨fun y hy => ?_, fun _ => hg', fun y hy => ?_⟩
  · by_cases hlt : (y 0).val < 128 * t.val
    · rw [View.read_writes_cons_rows_of_not_mem _ _ inb1 _ [] y (hoff1 t) rfl (Or.inl hlt), View.writes_nil]
      exact (congrFun (harg12.read_unread a) y).trans (hI.1 y hlt)
    · have hT : tOf (y 0).val (idx2_lt0 y) = t := Fin.ext (by show (y 0).val / 128 = t.val; omega)
      have hlo : (y 0).val - 128 * t.val < 128 := by omega
      have hR : (⟨(y 0).val % 128, Nat.mod_lt _ (by norm_num)⟩ : Fin 128) = ⟨(y 0).val - 128 * t.val, hlo⟩ :=
        Fin.ext (by show (y 0).val % 128 = (y 0).val - 128 * t.val; omega)
      rw [View.read_writes_cons_rows_of_mem _ _ inb1 _ [] y (ix2 ⟨(y 0).val - 128 * t.val, hlo⟩ ⟨(y 1).val, idx2_lt1 y⟩)
        (hoff1 t) (by show (y 0).val = 128 * t.val + ((y 0).val - 128 * t.val); omega) rfl]
      show _ = k0_pay3 (bAdj m c (tOf (y 0).val (idx2_lt0 y))) (ix2 ⟨(y 0).val % 128, Nat.mod_lt _ (by norm_num)⟩ ⟨(y 1).val, idx2_lt1 y⟩)
      rw [hT, hR]
  · by_cases hlt : (y 0).val < 128 * t.val
    · rw [View.read_writes_cons_rows_of_not_mem _ _ inb2 _ [] y (hoff2 t) rfl (Or.inl hlt), View.writes_nil]
      exact (congrFun (harg14.read_unread h) y).trans (hI.2.2 y hlt)
    · have hT : tOf (y 0).val (idx2_lt0 y) = t := Fin.ext (by show (y 0).val / 128 = t.val; omega)
      have hlo : (y 0).val - 128 * t.val < 128 := by omega
      have hR : (⟨(y 0).val % 128, Nat.mod_lt _ (by norm_num)⟩ : Fin 128) = ⟨(y 0).val - 128 * t.val, hlo⟩ :=
        Fin.ext (by show (y 0).val % 128 = (y 0).val - 128 * t.val; omega)
      rw [View.read_writes_cons_rows_of_mem _ _ inb2 _ [] y (ix2 ⟨(y 0).val - 128 * t.val, hlo⟩ ⟨(y 1).val, idx2_lt1 y⟩)
        (hoff2 t) (by show (y 0).val = 128 * t.val + ((y 0).val - 128 * t.val); omega) rfl]
      show _ = k0_pay4 (bAdj m c (tOf (y 0).val (idx2_lt0 y))) (G1 m c) (bB1 m c (tOf (y 0).val (idx2_lt0 y)))
        (ix2 ⟨(y 0).val % 128, Nat.mod_lt _ (by norm_num)⟩ ⟨(y 1).val, idx2_lt1 y⟩)
      rw [hT, hR]

/-- Before the last point every row is stored: the two scratches are the whole arrays. -/
theorem inv_full (c : Dev nD) (a : Vec F S4096x4096 .bf16) (g h : Vec F S4096x256 .bf16) (hinv : Inv m c 32 a g h) :
    a = Afull m c ∧ h = H1full m c :=
  ⟨funext fun y => (hinv (le_refl _)).1 y (by have := idx2_lt0 y; omega),
   funext fun y => (hinv (le_refl _)).2.2 y (by have := idx2_lt0 y; omega)⟩

/-- The region invariant before point n: the three scratches at contents the relation holds of, and the generator register. -/
def PhiS (c : Dev nD) (n : ℕ) : sProp 𝕄 :=
  iprop(∃ a g h, ⌜Inv m c n a g h⌝ ∗ owns (c : Thread nD τ) scA fullShare a ∗ owns (c : Thread nD τ) scG fullShare g
    ∗ owns (c : Thread nD τ) scH fullShare h ∗ (∃ r, prngReg c r))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outV m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outV m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.succ = PhiS m c (t.val + 1) from rfl, Phi_castSucc]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [show (dats m 0 c).leavesExact 6 t = owns (c : Thread nD τ) (ms6 t) fullShare ((dats m 0 c).after 6 t) from by
    unfold Dat.leavesExact; rw [liveAt6 t], after6]
  rw [show (dats m 0 c).leavesExact 7 t = owns (c : Thread nD τ) (ms7 t) fullShare ((dats m 0 c).after 7 t) from by
    unfold Dat.leavesExact; rw [liveAt7 t], after7]
  rw [show (dats m 0 c).leavesExact 8 t = owns (c : Thread nD τ) (ms8 t) fullShare ((dats m 0 c).after 8 t) from by
    unfold Dat.leavesExact; rw [liveAt8 t], after8]
  rw [show (dats m 0 c).leavesExact 9 t = owns (c : Thread nD τ) (ms9 t) fullShare ((dats m 0 c).after 9 t) from by
    unfold Dat.leavesExact; rw [liveAt9 t], after9]
  have hNt : t.val < 33 := lt_of_lt_of_eq t.isLt hN
  unfold PhiS
  by_cases h2 : t.val = 32
  · -- the last point: layers two to four
    have hc0 : ¬cond0 (grid0.coords t) := fun hh => by have := (hcond0 t).mp hh; omega
    have hc1 : ¬cond1 (grid0.coords t) := fun hh => by have := (hcond1 t).mp hh; omega
    have hc2 : cond2 (grid0.coords t) := (hcond2 t).mpr h2
    rw [show (dats m 0 c).leavesExact 10 t = owns (c : Thread nD τ) (ms10 t) fullShare ((dats m 0 c).after 10 t) from by
      unfold Dat.leavesExact; rw [liveAt10 t hc2], after10]
    iintro ⟨⟨%a, %g, %h, %hinv, HA, HG, HH, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    obtain ⟨ha, hh⟩ := inv_full m c a g h (h2 ▸ hinv)
    subst ha; subst hh
    iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scA (Memref.isWhole_whole _) scG (Memref.isWhole_whole _) scH (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) (Afull m c) g (H1full m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HA]; · iexact HA
    isplitl [HG]; · iexact HG
    isplitl [HH]; · iexact HH
    iintro ⟨H0, H1, H2, H3, H4, H5, H6, H7, H8, H9, H10, ⟨%a', HA⟩, ⟨%g', HG⟩, ⟨%h', HH⟩⟩
    isplitl [HA HG HH Hg]
    · iexists a', g', h'
      isplitr
      · ipureintro; intro hle; omega
      isplitl [HA]; · iexact HA
      isplitl [HG]; · iexact HG
      isplitl [HH]; · iexact HH
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hc2 : ¬cond2 (grid0.coords t) := fun hh => h2 ((hcond2 t).mp hh)
    have hc1 : cond1 (grid0.coords t) := (hcond1 t).mpr (by omega)
    rw [Dat.leavesExact_idle (dats m 0 c) 10 t (idleAt10 t hc2) (noFlush10 t hc2)]
    by_cases h0 : t.val = 0
    · -- the first point: the product x·W1, then the first block of rows
      have hc0 : cond0 (grid0.coords t) := (hcond0 t).mpr h0
      have ht0 : t = t0 := Fin.ext h0
      iintro ⟨⟨%a, %g, %h, %hinv, HA, HG, HH, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scA (Memref.isWhole_whole _) scG (Memref.isWhole_whole _) scH (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) a g h Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HA]; · iexact HA
      isplitl [HG]; · iexact HG
      isplitl [HH]; · iexact HH
      iintro ⟨H0, H1, H2, H3, H4, H5, H6, H7, H8, H9, H10, HA, HG, HH⟩
      isplitl [HA HG HH Hg]
      · iexists _, _, _
        isplitr
        swap
        · isplitl [HA]; · iexact HA
          isplitl [HG]; · iexact HG
          isplitl [HH]; · iexact HH
          iexact Hg
        ipureintro
        have hg1 : k0_pay1 (iblk m c 0 t) (iblk m c 2 t) = G1 m c := by subst ht0; rfl
        exact inv_step m c t (by omega) a g h hinv _ hg1 _ rfl _ rfl _ hg1 scA (Memref.isWhole_whole _) scH (Memref.isWhole_whole _) _ _
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10
    · -- a middle point: one more block of rows
      have hc0 : ¬cond0 (grid0.coords t) := fun hh => h0 ((hcond0 t).mp hh)
      iintro ⟨⟨%a, %g, %h, %hinv, HA, HG, HH, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      have hg : g = G1 m c := (hinv (by omega)).2.1 (by omega)
      iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scA (Memref.isWhole_whole _) scG (Memref.isWhole_whole _) scH (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) a g h Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HA]; · iexact HA
      isplitl [HG]; · iexact HG
      isplitl [HH]; · iexact HH
      iintro ⟨H0, H1, H2, H3, H4, H5, H6, H7, H8, H9, H10, HA, HG, HH⟩
      isplitl [HA HG HH Hg]
      · iexists _, _, _
        isplitr
        swap
        · isplitl [HA]; · iexact HA
          isplitl [HG]; · iexact HG
          isplitl [HH]; · iexact HH
          iexact Hg
        ipureintro
        exact inv_step m c t (by omega) a g h hinv _ hg _ rfl _ rfl _ hg scA (Memref.isWhole_whole _) scH (Memref.isWhole_whole _) _ _
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is known of the scratches. -/
theorem hin (c : Dev nD) : Pipeline.ΦA spec0 c ⊢ (dats m 0 c).Φ 0 := by
  rw [show (dats m 0 c).Φ 0 = PhiS m c 0 from rfl, PhiA_eq]
  unfold PhiS
  iintro ⟨⟨⟨%a, HA⟩, ⟨%g, HG⟩, ⟨%h, HH⟩⟩, Hg⟩
  iexists a, g, h
  isplitr
  · ipureintro; intro _; exact ⟨fun y hy => by omega, fun h0 => by omega, fun y hy => by omega⟩
  isplitl [HA]; · iexact HA
  isplitl [HG]; · iexact HG
  isplitl [HH]; · iexact HH
  iexact Hg

/-- After the last point the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨%a, %g, %h, %hinv, HA, HG, HH, Hg⟩
  isplitl [HA HG HH]
  · isplitl [HA]; · iexists _; iexact HA
    isplitl [HG]; · iexists _; iexact HG
    iexists _; iexact HH
  iexact Hg

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every weakly fair execution terminates without a fault and leaves the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  frame_of m ρ (dats m) (A_eq m) (run_main m ρ)

end Cert.Kernel.Body

end
-- ==== Proof.KIShared.lean ====
/-
  What the three control cases of the body share. The grid has 33 points. At point 0 the body forms x·W1 and stores it
  whole into the second scratch; at every point t < 32 it rounds rows [128t, 128t+128) of the adjacency into the first
  scratch and stores the rectified rows adj_t·(x·W1) + b1 into the same rows of the third scratch; at point 32 it runs
  layers two to four out of the scratches and stores the result block whole. The three branch conditions are scalar
  chains over the grid coordinate, decided here over all 33 points.
-/
import proofs.«156455_g48490180772547_cont_8to1_c_629_4_alg».proof.Proof.Gen.KernelIdeal.Frame
import proofs.«156455_g48490180772547_cont_8to1_c_629_4_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch (the product x·W1) is taken at point 0 only. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-- The second branch (one block of rows of layer one) is taken at the points before the last. -/
abbrev cond1 (i : grid0.Coords) : Prop := k0_cond2 i = 1#1
theorem hcond1 : ∀ t : Fin cfg0.N, cond1 (grid0.coords t) ↔ t.val < 32 :=
  (by decide +kernel : ∀ t : Fin grid0.N, cond1 (grid0.coords t) ↔ t.val < 32)

/-- The third branch (layers two to four) is taken at the last point only. -/
abbrev cond2 (i : grid0.Coords) : Prop := k0_cond3 i = 1#1
theorem hcond2 : ∀ t : Fin cfg0.N, cond2 (grid0.coords t) ↔ t.val = 32 :=
  (by decide +kernel : ∀ t : Fin grid0.N, cond2 (grid0.coords t) ↔ t.val = 32)

/-- The rows the second branch stores at point t start at 128·t, in both scratches. -/
theorem hoff1 : ∀ t : Fin cfg0.N, k0_off1 (grid0.coords t) = ![128 * t.val, 0] :=
  (by decide +kernel : ∀ t : Fin grid0.N, k0_off1 (grid0.coords t) = ![128 * t.val, 0])
theorem hoff2 : ∀ t : Fin cfg0.N, k0_off2 (grid0.coords t) = ![128 * t.val, 0] :=
  (by decide +kernel : ∀ t : Fin grid0.N, k0_off2 (grid0.coords t) = ![128 * t.val, 0])

/-! ## Where the windows are idle -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel
theorem liveAt7 : ∀ t : Fin cfg0.N, cfg0.idle 7 (grid0.coords t) = false := by decide +kernel
theorem liveAt8 : ∀ t : Fin cfg0.N, cfg0.idle 8 (grid0.coords t) = false := by decide +kernel
theorem liveAt9 : ∀ t : Fin cfg0.N, cfg0.idle 9 (grid0.coords t) = false := by decide +kernel
/-- The result window is idle, and not written back, at every point but the last. -/
theorem idleAt10 : ∀ t : Fin cfg0.N, ¬cond2 (grid0.coords t) → cfg0.idle 10 (grid0.coords t) = true := by decide +kernel
theorem noFlush10 : ∀ t : Fin cfg0.N, ¬cond2 (grid0.coords t) → (cfg0.win 10).flush t = false := by decide +kernel
theorem liveAt10 : ∀ t : Fin cfg0.N, cond2 (grid0.coords t) → cfg0.idle 10 (grid0.coords t) = false := by decide +kernel

/-! ## The memrefs the body is called with -/
abbrev ms0 (t : Fin cfg0.N) : Memref sig .tc .vmem S4096x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x64 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S64x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S4096x128 .f32 := win0_10.stage (cfg0.slots t 10)
abbrev hs10 (t : Fin cfg0.N) : (ms10 t).IsWhole := hstage0_10 ((cfg0.slots t 10).cast nbuf0_10)
/-- The three scratch operands: the rounded adjacency, the products h·W, the rectified layers. -/
abbrev scA : Memref sig .tc .vmem S4096x4096 .bf16 := Memref.whole cc0_scratch0
abbrev scG : Memref sig .tc .vmem S4096x256 .bf16 := Memref.whole cc0_scratch1
abbrev scH : Memref sig .tc .vmem S4096x256 .bf16 := Memref.whole cc0_scratch2

/-- The class invariant with the three scratch operands as memrefs owned at some contents. -/
theorem PhiA_eq (c : Dev nD) :
    (Pipeline.ΦA spec0 c : sProp 𝕄)
      = iprop(iprop((∃ d, owns (c : Thread nD τ) scA fullShare d) ∗ (∃ d, owns (c : Thread nD τ) scG fullShare d) ∗ (∃ d, owns (c : Thread nD τ) scH fullShare d)) ∗ (∃ r, prngReg c r)) := by
  unfold Pipeline.ΦA; rw [scopedRest0_eq]; simp only [scA, scG, scH, owns_whole]; try rfl

end Cert.KernelIdeal.Body

end
-- ==== Proof.KIRunA.lean ====
/-
  The body at point 0. Both of its first two branches run: the product x·W1 is stored whole into the second scratch, read
  back, and used for the first block of rows: the rounded rows of the adjacency go into rows [0, 128) of the first scratch,
  the rectified rows adj_0·(x·W1) + b1 into rows [0, 128) of the third. Every other buffer is left as found.
-/
import proofs.«156455_g48490180772547_cont_8to1_c_629_4_alg».proof.Proof.KIShared
import proofs.«156455_g48490180772547_cont_8to1_c_629_4_alg».proof.Proof.LibWholeStore
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runA (c : Dev nD) (i : grid0.Coords) (arg1 : Memref sig .tc .vmem S4096x512 .bf16) (harg1 : arg1.IsWhole) (arg2 : Memref sig .tc .vmem S128x4096 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S64x128 .bf16) (harg9 : arg9.IsWhole) (arg10 : Memref sig .tc .vmem S1x128 .f32) (harg10 : arg10.IsWhole) (arg11 : Memref sig .tc .vmem S4096x128 .f32) (harg11 : arg11.IsWhole) (arg12 : Memref sig .tc .vmem S4096x4096 .bf16) (harg12 : arg12.IsWhole) (arg13 : Memref sig .tc .vmem S4096x256 .bf16) (harg13 : arg13.IsWhole) (arg14 : Memref sig .tc .vmem S4096x256 .bf16) (harg14 : arg14.IsWhole) (hc0 : cond0 i) (hc1 : cond1 i) (hc2 : ¬cond2 i)
    (x0 : Vec F S4096x512 .bf16) (x1 : Vec F S128x4096 .f32) (x2 : Vec F S512x256 .bf16) (x3 : Vec F S1x256 .f32) (x4 : Vec F S256x128 .bf16) (x5 : Vec F S1x128 .f32) (x6 : Vec F S128x64 .bf16) (x7 : Vec F S1x64 .f32) (x8 : Vec F S64x128 .bf16) (x9 : Vec F S1x128 .f32) (xo : Vec F S4096x128 .f32) (xa : Vec F S4096x4096 .bf16) (xg : Vec F S4096x256 .bf16) (xh : Vec F S4096x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ owns (c : Thread nD τ) arg12 fullShare xa ∗ owns (c : Thread nD τ) arg13 fullShare xg ∗ owns (c : Thread nD τ) arg14 fullShare xh
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ owns (c : Thread nD τ) arg12 fullShare (arg12.view.read (Elt F) (arg12.view.writes (Elt F) (harg12.unread xa) [(⟨Rect.unit (k0_off1 i) S128x4096.size (k0_off1_inb i hc1), k0_pay3 x1⟩ : View.Piece (Elt F) S4096x4096 .bf16)])) ∗ owns (c : Thread nD τ) arg13 fullShare (k0_pay1 x0 x2) ∗ owns (c : Thread nD τ) arg14 fullShare (arg14.view.read (Elt F) (arg14.view.writes (Elt F) (harg14.unread xh) [(⟨Rect.unit (k0_off2 i) S128x256.size (k0_off2_inb i hc1), k0_pay4 x1 (k0_pay1 x0 x2) x3⟩ : View.Piece (Elt F) S4096x256 .bf16)]))) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact hc0 | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4096x512) View.zero2, View.ld_unit_zero (S := S128x4096) View.zero2, View.ld_unit_zero (S := S512x256) View.zero2, View.ld_unit_zero (S := S1x256) View.zero2, View.ld_unit_zero (S := S256x128) View.zero2, View.ld_unit_zero (S := S1x128) View.zero2, View.ld_unit_zero (S := S128x64) View.zero2, View.ld_unit_zero (S := S1x64) View.zero2, View.ld_unit_zero (S := S64x128) View.zero2, View.ld_unit_zero (S := S4096x128) View.zero2, View.ld_unit_zero (S := S4096x4096) View.zero2, View.ld_unit_zero (S := S4096x256) View.zero2]
  isplitl [H13]
  · iexists _; isplitr; swap; · iexact H13
    ipureintro
    sl_unfold_words
    rw [View.read_writes_cons_whole (S := S4096x256) _ _ View.zero2]
    simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4096x512) View.zero2, View.ld_unit_zero (S := S128x4096) View.zero2, View.ld_unit_zero (S := S512x256) View.zero2, View.ld_unit_zero (S := S1x256) View.zero2, View.ld_unit_zero (S := S256x128) View.zero2, View.ld_unit_zero (S := S1x128) View.zero2, View.ld_unit_zero (S := S128x64) View.zero2, View.ld_unit_zero (S := S1x64) View.zero2, View.ld_unit_zero (S := S64x128) View.zero2, View.ld_unit_zero (S := S4096x128) View.zero2, View.ld_unit_zero (S := S4096x4096) View.zero2, View.ld_unit_zero (S := S4096x256) View.zero2]
  iexists _; isplitr; swap; · iexact H14
  ipureintro
  sl_unfold_words
  simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4096x512) View.zero2, View.ld_unit_zero (S := S128x4096) View.zero2, View.ld_unit_zero (S := S512x256) View.zero2, View.ld_unit_zero (S := S1x256) View.zero2, View.ld_unit_zero (S := S256x128) View.zero2, View.ld_unit_zero (S := S1x128) View.zero2, View.ld_unit_zero (S := S128x64) View.zero2, View.ld_unit_zero (S := S1x64) View.zero2, View.ld_unit_zero (S := S64x128) View.zero2, View.ld_unit_zero (S := S4096x128) View.zero2, View.ld_unit_zero (S := S4096x4096) View.zero2, View.ld_unit_zero (S := S4096x256) View.zero2]

end Cert.KernelIdeal.Body

end
-- ==== Proof.KIRunB.lean ====
/-
  The body at a point t with 0 < t < 32. Only the second branch runs: the rounded rows of the adjacency block go into
  rows [128t, 128t+128) of the first scratch, and the rectified rows adj_t·g + b1, with g the contents of the second
  scratch, into the same rows of the third. Every other buffer is left as found.
-/
import proofs.«156455_g48490180772547_cont_8to1_c_629_4_alg».proof.Proof.KIShared
import proofs.«156455_g48490180772547_cont_8to1_c_629_4_alg».proof.Proof.LibWholeStore
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runB (c : Dev nD) (i : grid0.Coords) (arg1 : Memref sig .tc .vmem S4096x512 .bf16) (harg1 : arg1.IsWhole) (arg2 : Memref sig .tc .vmem S128x4096 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S64x128 .bf16) (harg9 : arg9.IsWhole) (arg10 : Memref sig .tc .vmem S1x128 .f32) (harg10 : arg10.IsWhole) (arg11 : Memref sig .tc .vmem S4096x128 .f32) (harg11 : arg11.IsWhole) (arg12 : Memref sig .tc .vmem S4096x4096 .bf16) (harg12 : arg12.IsWhole) (arg13 : Memref sig .tc .vmem S4096x256 .bf16) (harg13 : arg13.IsWhole) (arg14 : Memref sig .tc .vmem S4096x256 .bf16) (harg14 : arg14.IsWhole) (hc0 : ¬cond0 i) (hc1 : cond1 i) (hc2 : ¬cond2 i)
    (x0 : Vec F S4096x512 .bf16) (x1 : Vec F S128x4096 .f32) (x2 : Vec F S512x256 .bf16) (x3 : Vec F S1x256 .f32) (x4 : Vec F S256x128 .bf16) (x5 : Vec F S1x128 .f32) (x6 : Vec F S128x64 .bf16) (x7 : Vec F S1x64 .f32) (x8 : Vec F S64x128 .bf16) (x9 : Vec F S1x128 .f32) (xo : Vec F S4096x128 .f32) (xa : Vec F S4096x4096 .bf16) (xg : Vec F S4096x256 .bf16) (xh : Vec F S4096x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ owns (c : Thread nD τ) arg12 fullShare xa ∗ owns (c : Thread nD τ) arg13 fullShare xg ∗ owns (c : Thread nD τ) arg14 fullShare xh
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ owns (c : Thread nD τ) arg12 fullShare (arg12.view.read (Elt F) (arg12.view.writes (Elt F) (harg12.unread xa) [(⟨Rect.unit (k0_off1 i) S128x4096.size (k0_off1_inb i hc1), k0_pay3 x1⟩ : View.Piece (Elt F) S4096x4096 .bf16)])) ∗ owns (c : Thread nD τ) arg13 fullShare xg ∗ owns (c : Thread nD τ) arg14 fullShare (arg14.view.read (Elt F) (arg14.view.writes (Elt F) (harg14.unread xh) [(⟨Rect.unit (k0_off2 i) S128x256.size (k0_off2_inb i hc1), k0_pay4 x1 xg x3⟩ : View.Piece (Elt F) S4096x256 .bf16)]))) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact hc0 | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4096x512) View.zero2, View.ld_unit_zero (S := S128x4096) View.zero2, View.ld_unit_zero (S := S512x256) View.zero2, View.ld_unit_zero (S := S1x256) View.zero2, View.ld_unit_zero (S := S256x128) View.zero2, View.ld_unit_zero (S := S1x128) View.zero2, View.ld_unit_zero (S := S128x64) View.zero2, View.ld_unit_zero (S := S1x64) View.zero2, View.ld_unit_zero (S := S64x128) View.zero2, View.ld_unit_zero (S := S4096x128) View.zero2, View.ld_unit_zero (S := S4096x4096) View.zero2, View.ld_unit_zero (S := S4096x256) View.zero2]
  isplitl [H13]
  · iexists _; isplitr; · ipureintro; exact harg13.read_unread _
    iexact H13
  iexists _; isplitr; swap; · iexact H14
  ipureintro
  simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4096x512) View.zero2, View.ld_unit_zero (S := S128x4096) View.zero2, View.ld_unit_zero (S := S512x256) View.zero2, View.ld_unit_zero (S := S1x256) View.zero2, View.ld_unit_zero (S := S256x128) View.zero2, View.ld_unit_zero (S := S1x128) View.zero2, View.ld_unit_zero (S := S128x64) View.zero2, View.ld_unit_zero (S := S1x64) View.zero2, View.ld_unit_zero (S := S64x128) View.zero2, View.ld_unit_zero (S := S4096x128) View.zero2, View.ld_unit_zero (S := S4096x4096) View.zero2, View.ld_unit_zero (S := S4096x256) View.zero2]

end Cert.KernelIdeal.Body

end
-- ==== Proof.KIRunC.lean ====
/-
  The body at the last point. Only the third branch runs: layers two to four, each a product h·W stored into columns of
  the second scratch and read back, then the rectified adj·(h·W) + b stored into columns of the third scratch and read
  back, the adjacency read from the first scratch each time; the last layer's result is stored whole into the result
  block. The result is one composed term of what the first and third scratches and the weight and bias blocks held.
-/
import proofs.«156455_g48490180772547_cont_8to1_c_629_4_alg».proof.Proof.KIShared
import proofs.«156455_g48490180772547_cont_8to1_c_629_4_alg».proof.Proof.LibWholeStore
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem runC (c : Dev nD) (i : grid0.Coords) (arg1 : Memref sig .tc .vmem S4096x512 .bf16) (harg1 : arg1.IsWhole) (arg2 : Memref sig .tc .vmem S128x4096 .f32) (harg2 : arg2.IsWhole) (arg3 : Memref sig .tc .vmem S512x256 .bf16) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S64x128 .bf16) (harg9 : arg9.IsWhole) (arg10 : Memref sig .tc .vmem S1x128 .f32) (harg10 : arg10.IsWhole) (arg11 : Memref sig .tc .vmem S4096x128 .f32) (harg11 : arg11.IsWhole) (arg12 : Memref sig .tc .vmem S4096x4096 .bf16) (harg12 : arg12.IsWhole) (arg13 : Memref sig .tc .vmem S4096x256 .bf16) (harg13 : arg13.IsWhole) (arg14 : Memref sig .tc .vmem S4096x256 .bf16) (harg14 : arg14.IsWhole) (hc0 : ¬cond0 i) (hc1 : ¬cond1 i) (hc2 : cond2 i)
    (x0 : Vec F S4096x512 .bf16) (x1 : Vec F S128x4096 .f32) (x2 : Vec F S512x256 .bf16) (x3 : Vec F S1x256 .f32) (x4 : Vec F S256x128 .bf16) (x5 : Vec F S1x128 .f32) (x6 : Vec F S128x64 .bf16) (x7 : Vec F S1x64 .f32) (x8 : Vec F S64x128 .bf16) (x9 : Vec F S1x128 .f32) (xo : Vec F S4096x128 .f32) (xa : Vec F S4096x4096 .bf16) (xg : Vec F S4096x256 .bf16) (xh : Vec F S4096x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo ∗ owns (c : Thread nD τ) arg12 fullShare xa ∗ owns (c : Thread nD τ) arg13 fullShare xg ∗ owns (c : Thread nD τ) arg14 fullShare xh
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (k0_pay7 xa (k0_pay6 (k0_pay5 xa (k0_pay10 (k0_pay9 xa (k0_pay8 xh x4) x5) x6) x7) x8) x9) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact hc0 | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    sl_unfold_words
    rw [View.read_writes_cons_whole (S := S4096x128) _ _ View.zero2]
    simp only [View.readCov_cons_toLoadRect, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S4096x512) View.zero2, View.ld_unit_zero (S := S128x4096) View.zero2, View.ld_unit_zero (S := S512x256) View.zero2, View.ld_unit_zero (S := S1x256) View.zero2, View.ld_unit_zero (S := S256x128) View.zero2, View.ld_unit_zero (S := S1x128) View.zero2, View.ld_unit_zero (S := S128x64) View.zero2, View.ld_unit_zero (S := S1x64) View.zero2, View.ld_unit_zero (S := S64x128) View.zero2, View.ld_unit_zero (S := S4096x128) View.zero2, View.ld_unit_zero (S := S4096x4096) View.zero2, View.ld_unit_zero (S := S4096x256) View.zero2]
  isplitl [H12]
  · iexists _; iexists _; isplitr; swap; · iexact H12
    ipureintro; rfl
  isplitl [H13]
  · iexists _; iexists _; isplitr; swap; · iexact H13
    ipureintro; rfl
  iexists _; iexists _; isplitr; swap; · iexact H14
  ipureintro; rfl

end Cert.KernelIdeal.Body

end
-- ==== Proof.KIBody.lean ====
/-
  The frame of the fused graph-convolution kernel, and what its result block holds. The body keeps three scratch buffers
  between grid points. After the points before n (n ≤ 32): rows [0, 128n) of the first scratch hold the rounded adjacency
  rows, block by block; from n = 1 on the second scratch holds the product x·W1; rows [0, 128n) of the third scratch hold
  the rectified first layer, block by block; the rows from 128n on hold whatever they held. This is stated as a relation
  on the scratch contents (the rows not yet stored are arbitrary), carried by the region invariant. At point 32 every row
  is stored, so the two scratches are the whole arrays, and the last branch's result is one term of them and of the weight
  and bias blocks: the result window's block, written back at that point only.
-/
import proofs.«156455_g48490180772547_cont_8to1_c_629_4_alg».proof.Proof.KIRunA
import proofs.«156455_g48490180772547_cont_8to1_c_629_4_alg».proof.Proof.KIRunB
import proofs.«156455_g48490180772547_cont_8to1_c_629_4_alg».proof.Proof.KIRunC
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem hN : cfg0.N = 33 := N_0

/-! ## The windows' blocks at their vector types -/
def bX (c : Dev nD) (t : Fin cfg0.N) : Vec F S4096x512 .bf16 := iblk m c 0 t
def bAdj (c : Dev nD) (t : Fin cfg0.N) : Vec F S128x4096 .f32 := iblk m c 1 t
def bW1 (c : Dev nD) (t : Fin cfg0.N) : Vec F S512x256 .bf16 := iblk m c 2 t
def bB1 (c : Dev nD) (t : Fin cfg0.N) : Vec F S1x256 .f32 := iblk m c 3 t
def bW2 (c : Dev nD) (t : Fin cfg0.N) : Vec F S256x128 .bf16 := iblk m c 4 t
def bB2 (c : Dev nD) (t : Fin cfg0.N) : Vec F S1x128 .f32 := iblk m c 5 t
def bW3 (c : Dev nD) (t : Fin cfg0.N) : Vec F S128x64 .bf16 := iblk m c 6 t
def bB3 (c : Dev nD) (t : Fin cfg0.N) : Vec F S1x64 .f32 := iblk m c 7 t
def bW4 (c : Dev nD) (t : Fin cfg0.N) : Vec F S64x128 .bf16 := iblk m c 8 t
def bB4 (c : Dev nD) (t : Fin cfg0.N) : Vec F S1x128 .f32 := iblk m c 9 t

/-- The first grid point. -/
def t0 : Fin cfg0.N := ⟨0, by rw [hN]; omega⟩
/-- The grid point that stores row r. -/
def tOf (r : ℕ) (h : r < 4096) : Fin cfg0.N := ⟨r / 128, by rw [hN]; omega⟩

/-! ## What the scratches hold once stored -/

/-- The rounded adjacency, row block by row block. -/
def Afull (c : Dev nD) : Vec F S4096x4096 .bf16 := fun y =>
  k0_pay3 (bAdj m c (tOf (y 0).val (idx2_lt0 y))) (ix2 ⟨(y 0).val % 128, Nat.mod_lt _ (by norm_num)⟩ ⟨(y 1).val, idx2_lt1 y⟩)
/-- The product x·W1, formed at the first point. -/
def G1 (c : Dev nD) : Vec F S4096x256 .bf16 := k0_pay1 (bX m c t0) (bW1 m c t0)
/-- The rectified first layer, row block by row block. -/
def H1full (c : Dev nD) : Vec F S4096x256 .bf16 := fun y =>
  k0_pay4 (bAdj m c (tOf (y 0).val (idx2_lt0 y))) (G1 m c) (bB1 m c (tOf (y 0).val (idx2_lt0 y)))
    (ix2 ⟨(y 0).val % 128, Nat.mod_lt _ (by norm_num)⟩ ⟨(y 1).val, idx2_lt1 y⟩)
/-- The result block: layers two to four of the whole first layer. -/
def outV (c : Dev nD) (t : Fin cfg0.N) : Vec F S4096x128 .f32 :=
  k0_pay7 (Afull m c) (k0_pay6 (k0_pay5 (Afull m c) (k0_pay10 (k0_pay9 (Afull m c) (k0_pay8 (H1full m c) (bW2 m c t)) (bB2 m c t)) (bW3 m c t)) (bB3 m c t)) (bW4 m c t)) (bB4 m c t)

/-- The relation the scratch contents satisfy before point n. -/
def Inv (c : Dev nD) (n : ℕ) (a : Vec F S4096x4096 .bf16) (g h : Vec F S4096x256 .bf16) : Prop :=
  n ≤ 32 → ((∀ y : S4096x4096.Idx, (y 0).val < 128 * n → a y = Afull m c y) ∧ (0 < n → g = G1 m c)
    ∧ (∀ y : S4096x256.Idx, (y 0).val < 128 * n → h y = H1full m c y))

/-- One more block of rows: the step of the relation at a point t < 32, for any view of the two row-stored scratches. -/
theorem inv_step (c : Dev nD) (t : Fin cfg0.N) (ht : t.val < 32) (a : Vec F S4096x4096 .bf16) (g h : Vec F S4096x256 .bf16)
    (hinv : Inv m c t.val a g h) (g' : Vec F S4096x256 .bf16) (hg' : g' = G1 m c)
    (x1 : Vec F S128x4096 .f32) (hx1 : x1 = bAdj m c t) (x3 : Vec F S1x256 .f32) (hx3 : x3 = bB1 m c t)
    (gp : Vec F S4096x256 .bf16) (hgp : gp = G1 m c)
    (arg12 : Memref sig .tc .vmem S4096x4096 .bf16) (harg12 : arg12.IsWhole)
    (arg14 : Memref sig .tc .vmem S4096x256 .bf16) (harg14 : arg14.IsWhole)
    (inb1 : ∀ a, (k0_off1 (grid0.coords t)) a + S128x4096.size a ≤ S4096x4096.size a)
    (inb2 : ∀ a, (k0_off2 (grid0.coords t)) a + S128x256.size a ≤ S4096x256.size a) :
    Inv m c (t.val + 1)
      (arg12.view.read (Elt F) (arg12.view.writes (Elt F) (harg12.unread a) [(⟨Rect.unit (k0_off1 (grid0.coords t)) S128x4096.size inb1, k0_pay3 x1⟩ : View.Piece (Elt F) S4096x4096 .bf16)]))
      g'
      (arg14.view.read (Elt F) (arg14.view.writes (Elt F) (harg14.unread h) [(⟨Rect.unit (k0_off2 (grid0.coords t)) S128x256.size inb2, k0_pay4 x1 gp x3⟩ : View.Piece (Elt F) S4096x256 .bf16)])) := by
  subst hx1 hx3 hgp
  intro _
  have hI := hinv (by omega)
  refine ⟨fun y hy => ?_, fun _ => hg', fun y hy => ?_⟩
  · by_cases hlt : (y 0).val < 128 * t.val
    · rw [View.read_writes_cons_rows_of_not_mem _ _ inb1 _ [] y (hoff1 t) rfl (Or.inl hlt), View.writes_nil]
      exact (congrFun (harg12.read_unread a) y).trans (hI.1 y hlt)
    · have hT : tOf (y 0).val (idx2_lt0 y) = t := Fin.ext (by show (y 0).val / 128 = t.val; omega)
      have hlo : (y 0).val - 128 * t.val < 128 := by omega
      have hR : (⟨(y 0).val % 128, Nat.mod_lt _ (by norm_num)⟩ : Fin 128) = ⟨(y 0).val - 128 * t.val, hlo⟩ :=
        Fin.ext (by show (y 0).val % 128 = (y 0).val - 128 * t.val; omega)
      rw [View.read_writes_cons_rows_of_mem _ _ inb1 _ [] y (ix2 ⟨(y 0).val - 128 * t.val, hlo⟩ ⟨(y 1).val, idx2_lt1 y⟩)
        (hoff1 t) (by show (y 0).val = 128 * t.val + ((y 0).val - 128 * t.val); omega) rfl]
      show _ = k0_pay3 (bAdj m c (tOf (y 0).val (idx2_lt0 y))) (ix2 ⟨(y 0).val % 128, Nat.mod_lt _ (by norm_num)⟩ ⟨(y 1).val, idx2_lt1 y⟩)
      rw [hT, hR]
  · by_cases hlt : (y 0).val < 128 * t.val
    · rw [View.read_writes_cons_rows_of_not_mem _ _ inb2 _ [] y (hoff2 t) rfl (Or.inl hlt), View.writes_nil]
      exact (congrFun (harg14.read_unread h) y).trans (hI.2.2 y hlt)
    · have hT : tOf (y 0).val (idx2_lt0 y) = t := Fin.ext (by show (y 0).val / 128 = t.val; omega)
      have hlo : (y 0).val - 128 * t.val < 128 := by omega
      have hR : (⟨(y 0).val % 128, Nat.mod_lt _ (by norm_num)⟩ : Fin 128) = ⟨(y 0).val - 128 * t.val, hlo⟩ :=
        Fin.ext (by show (y 0).val % 128 = (y 0).val - 128 * t.val; omega)
      rw [View.read_writes_cons_rows_of_mem _ _ inb2 _ [] y (ix2 ⟨(y 0).val - 128 * t.val, hlo⟩ ⟨(y 1).val, idx2_lt1 y⟩)
        (hoff2 t) (by show (y 0).val = 128 * t.val + ((y 0).val - 128 * t.val); omega) rfl]
      show _ = k0_pay4 (bAdj m c (tOf (y 0).val (idx2_lt0 y))) (G1 m c) (bB1 m c (tOf (y 0).val (idx2_lt0 y)))
        (ix2 ⟨(y 0).val % 128, Nat.mod_lt _ (by norm_num)⟩ ⟨(y 1).val, idx2_lt1 y⟩)
      rw [hT, hR]

/-- Before the last point every row is stored: the two scratches are the whole arrays. -/
theorem inv_full (c : Dev nD) (a : Vec F S4096x4096 .bf16) (g h : Vec F S4096x256 .bf16) (hinv : Inv m c 32 a g h) :
    a = Afull m c ∧ h = H1full m c :=
  ⟨funext fun y => (hinv (le_refl _)).1 y (by have := idx2_lt0 y; omega),
   funext fun y => (hinv (le_refl _)).2.2 y (by have := idx2_lt0 y; omega)⟩

/-- The region invariant before point n: the three scratches at contents the relation holds of, and the generator register. -/
def PhiS (c : Dev nD) (n : ℕ) : sProp 𝕄 :=
  iprop(∃ a g h, ⌜Inv m c n a g h⌝ ∗ owns (c : Thread nD τ) scA fullShare a ∗ owns (c : Thread nD τ) scG fullShare g
    ∗ owns (c : Thread nD τ) scH fullShare h ∗ (∃ r, prngReg c r))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outV m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outV m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).owesAt () t.succ = (dats m 0 c).owesAt () t.castSucc from rfl]
  rw [show (dats m 0 c).Φ t.succ = PhiS m c (t.val + 1) from rfl, Phi_castSucc]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [show (dats m 0 c).leavesExact 6 t = owns (c : Thread nD τ) (ms6 t) fullShare ((dats m 0 c).after 6 t) from by
    unfold Dat.leavesExact; rw [liveAt6 t], after6]
  rw [show (dats m 0 c).leavesExact 7 t = owns (c : Thread nD τ) (ms7 t) fullShare ((dats m 0 c).after 7 t) from by
    unfold Dat.leavesExact; rw [liveAt7 t], after7]
  rw [show (dats m 0 c).leavesExact 8 t = owns (c : Thread nD τ) (ms8 t) fullShare ((dats m 0 c).after 8 t) from by
    unfold Dat.leavesExact; rw [liveAt8 t], after8]
  rw [show (dats m 0 c).leavesExact 9 t = owns (c : Thread nD τ) (ms9 t) fullShare ((dats m 0 c).after 9 t) from by
    unfold Dat.leavesExact; rw [liveAt9 t], after9]
  have hNt : t.val < 33 := lt_of_lt_of_eq t.isLt hN
  unfold PhiS
  by_cases h2 : t.val = 32
  · -- the last point: layers two to four
    have hc0 : ¬cond0 (grid0.coords t) := fun hh => by have := (hcond0 t).mp hh; omega
    have hc1 : ¬cond1 (grid0.coords t) := fun hh => by have := (hcond1 t).mp hh; omega
    have hc2 : cond2 (grid0.coords t) := (hcond2 t).mpr h2
    rw [show (dats m 0 c).leavesExact 10 t = owns (c : Thread nD τ) (ms10 t) fullShare ((dats m 0 c).after 10 t) from by
      unfold Dat.leavesExact; rw [liveAt10 t hc2], after10]
    iintro ⟨⟨%a, %g, %h, %hinv, HA, HG, HH, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    obtain ⟨ha, hh⟩ := inv_full m c a g h (h2 ▸ hinv)
    subst ha; subst hh
    iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scA (Memref.isWhole_whole _) scG (Memref.isWhole_whole _) scH (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) (Afull m c) g (H1full m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HA]; · iexact HA
    isplitl [HG]; · iexact HG
    isplitl [HH]; · iexact HH
    iintro ⟨H0, H1, H2, H3, H4, H5, H6, H7, H8, H9, H10, ⟨%a', HA⟩, ⟨%g', HG⟩, ⟨%h', HH⟩⟩
    isplitl [HA HG HH Hg]
    · iexists a', g', h'
      isplitr
      · ipureintro; intro hle; omega
      isplitl [HA]; · iexact HA
      isplitl [HG]; · iexact HG
      isplitl [HH]; · iexact HH
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hc2 : ¬cond2 (grid0.coords t) := fun hh => h2 ((hcond2 t).mp hh)
    have hc1 : cond1 (grid0.coords t) := (hcond1 t).mpr (by omega)
    rw [Dat.leavesExact_idle (dats m 0 c) 10 t (idleAt10 t hc2) (noFlush10 t hc2)]
    by_cases h0 : t.val = 0
    · -- the first point: the product x·W1, then the first block of rows
      have hc0 : cond0 (grid0.coords t) := (hcond0 t).mpr h0
      have ht0 : t = t0 := Fin.ext h0
      iintro ⟨⟨%a, %g, %h, %hinv, HA, HG, HH, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scA (Memref.isWhole_whole _) scG (Memref.isWhole_whole _) scH (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) a g h Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HA]; · iexact HA
      isplitl [HG]; · iexact HG
      isplitl [HH]; · iexact HH
      iintro ⟨H0, H1, H2, H3, H4, H5, H6, H7, H8, H9, H10, HA, HG, HH⟩
      isplitl [HA HG HH Hg]
      · iexists _, _, _
        isplitr
        swap
        · isplitl [HA]; · iexact HA
          isplitl [HG]; · iexact HG
          isplitl [HH]; · iexact HH
          iexact Hg
        ipureintro
        have hg1 : k0_pay1 (iblk m c 0 t) (iblk m c 2 t) = G1 m c := by subst ht0; rfl
        exact inv_step m c t (by omega) a g h hinv _ hg1 _ rfl _ rfl _ hg1 scA (Memref.isWhole_whole _) scH (Memref.isWhole_whole _) _ _
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10
    · -- a middle point: one more block of rows
      have hc0 : ¬cond0 (grid0.coords t) := fun hh => h0 ((hcond0 t).mp hh)
      iintro ⟨⟨%a, %g, %h, %hinv, HA, HG, HH, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      have hg : g = G1 m c := (hinv (by omega)).2.1 (by omega)
      iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scA (Memref.isWhole_whole _) scG (Memref.isWhole_whole _) scH (Memref.isWhole_whole _) hc0 hc1 hc2 (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) a g h Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HA]; · iexact HA
      isplitl [HG]; · iexact HG
      isplitl [HH]; · iexact HH
      iintro ⟨H0, H1, H2, H3, H4, H5, H6, H7, H8, H9, H10, HA, HG, HH⟩
      isplitl [HA HG HH Hg]
      · iexists _, _, _
        isplitr
        swap
        · isplitl [HA]; · iexact HA
          isplitl [HG]; · iexact HG
          isplitl [HH]; · iexact HH
          iexact Hg
        ipureintro
        exact inv_step m c t (by omega) a g h hinv _ hg _ rfl _ rfl _ hg scA (Memref.isWhole_whole _) scH (Memref.isWhole_whole _) _ _
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is known of the scratches. -/
theorem hin (c : Dev nD) : Pipeline.ΦA spec0 c ⊢ (dats m 0 c).Φ 0 := by
  rw [show (dats m 0 c).Φ 0 = PhiS m c 0 from rfl, PhiA_eq]
  unfold PhiS
  iintro ⟨⟨⟨%a, HA⟩, ⟨%g, HG⟩, ⟨%h, HH⟩⟩, Hg⟩
  iexists a, g, h
  isplitr
  · ipureintro; intro _; exact ⟨fun y hy => by omega, fun h0 => by omega, fun y hy => by omega⟩
  isplitl [HA]; · iexact HA
  isplitl [HG]; · iexact HG
  isplitl [HH]; · iexact HH
  iexact Hg

/-- After the last point the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨%a, %g, %h, %hinv, HA, HG, HH, Hg⟩
  isplitl [HA HG HH]
  · isplitl [HA]; · iexists _; iexact HA
    isplitl [HG]; · iexists _; iexact HG
    iexists _; iexact HH
  iexact Hg

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every weakly fair execution terminates without a fault and leaves the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  frame_of m ρ (dats m) (A_eq m) (run_main m ρ)

end Cert.KernelIdeal.Body

end
-- ==== Proof.KIFinal.lean ====
/-
  The result array after the run. The result window's one block is the whole [4096, 128] array at offsets zero, written
  back at the last grid point only; so the array ends holding what the body left in the block there: layers two to four
  of the whole first layer.
-/
import proofs.«156455_g48490180772547_cont_8to1_c_629_4_alg».proof.Proof.KIBody
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last grid point. -/
def t32 : Fin cfg0.N := ⟨32, by rw [hN]; omega⟩

/-- The one write-back writes the block read through zero offsets: the block itself. -/
theorem flushed_eq (c : Dev nD) (t : Fin cfg0.N) (hf : (cfg0.win 10).flush t = true) :
    (dats m 0 c).flushed 10 t = ((cfg0.win 10).blk t).view.read (Elt F) (outV m c t32) := by
  have h1 : t.val = 32 := by have := (flush0_10 t).mp hf; have := lt_of_lt_of_eq t.isLt hN; omega
  obtain rfl : t = t32 := Fin.ext h1
  show (cfg0.win 10).cut (grid0.coords t32) ((dats m 0 c).after 10 t32) = _
  rw [after10]
  have hz' : (fun a => win0_10.index t32 a * main_v9.ty.shape.size a) = fun _ => 0 := funext fun a => by fin_cases a <;> decide +kernel
  exact (Memref.read_access_unit_zero (Elt F) main_v9 hz' (fun a => by rw [congrFun hz' a]; simp) (outV m c t32)).symm

/-- The result array ends holding the last point's block: that block covers it. -/
theorem final10 (c : Dev nD) : (dats m 0 c).arrAt 10 cfg0.N = outV m c t32 :=
  (dats m 0 c).arrAt_eq_of_cover 10 (outV m c t32) (flushed_eq m c) fun i =>
    ⟨t32, (flush0_10 t32).mpr rfl, by
      show i ∈ ((View.whole main_v9).slice (win0_10.rect t32)).set
      rw [View.set_slice_whole, Rect.mem_set_unit]
      intro a
      have h0 : (i 0 : Nat) < 4096 := (i 0).isLt
      have h1 : (i 1 : Nat) < 128 := (i 1).isLt
      match a with
      | ⟨0, _⟩ => show win0_10.index t32 0 * win0_10.size 0 ≤ (i 0 : Nat) ∧ (i 0 : Nat) < win0_10.index t32 0 * win0_10.size 0 + win0_10.xsize (grid0.coords t32) 0
                  rw [show win0_10.index t32 0 * win0_10.size 0 = 0 from by decide +kernel, show win0_10.xsize (grid0.coords t32) 0 = 4096 from by decide +kernel]; omega
      | ⟨1, _⟩ => show win0_10.index t32 1 * win0_10.size 1 ≤ (i 1 : Nat) ∧ (i 1 : Nat) < win0_10.index t32 1 * win0_10.size 1 + win0_10.xsize (grid0.coords t32) 1
                  rw [show win0_10.index t32 1 * win0_10.size 1 = 0 from by decide +kernel, show win0_10.xsize (grid0.coords t32) 1 = 128 from by decide +kernel]; omega⟩

/-- The run with the result array named and the argument arrays unchanged. -/
theorem run_value : θ_run defs (onTc (τ := τ) (main (F := F))) ⟨m, fun _ => 0, ρ⟩ (fun r => ∀ c : Dev nD,
      r.2.mem ((c.tc : Thread nD τ).loc main_v9) = outV m c t32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 10).trans (final10 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.KernelIdeal.Body

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«156455_g48490180772547_cont_8to1_c_629_4_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibSoftplusLayers.lean ====
/-
  The shifted softplus `log(1 + eˣ) − c` in the numerically stable spelling `max(x, 0) + log1p(exp(−|x − 0|))`, guarded by a
  test `(x − 0) ≠ (x − 0)` that never fires on the extended reals, and dense layers `rows · weights + bias row` with that
  activation between them, each in two spellings that denote one function of the extended reals:

  * a kernel body's — the rows of one block, the weights rounded to bf16 (the identity here), a matrix-unit product into a zero
    accumulator, the bias a `[1, M]` row repeated down the rows, the negation spelled `0 − y`, the never-firing test the ordered
    "not equal";
  * the host's — `dot_general`, the bias `[M]` lifted to `[1, M]` and then to `[A, M]`, the constants rank-0 arrays broadcast
    to the shape, `negate`, the test the unordered "not equal".

  Entry `(p, q)` of a layer reads row `p` of its input only, so a block of rows of the result is the result of that block of rows.
-/
import Idealize.ShloMosaic.PureOps.Ideal.Laws
import Idealize.ShloMosaic.Lib.ValueIdx
import Idealize.ShloMosaic.Lib.ValueLayout
import Idealize.ShloMosaic.Lib.Pipeline.Value
import proofs.«156455_g48490180772547_cont_8to1_c_629_4_alg».proof.Proof.LibPlainDot
import proofs.«156455_g48490180772547_cont_8to1_c_629_4_alg».proof.Proof.LibAffine

noncomputable section

namespace Idealize.ShloMosaic.SoftplusLayers

open Idealize.ShloMosaic.ValueIdx Idealize.ShloMosaic.Affine

/-! ## The activation on one extended real -/

/-- The f32 word of `0.0`, kept as a word: both spellings carry it, and only the step `0 − y = −y` evaluates it. -/
def zeroW : EReal := Ideal.ofBits .f32 0x00000000#32

/-- The f32 word the activation is shifted by (the float nearest `log 2`), never evaluated: both spellings carry the same word. -/
def shiftW : EReal := Ideal.ofBits .f32 0x3F317218#32

/-- `max(x, 0) + log1p(exp(−|x − 0|)) − c` behind the guard `(x − 0) ≠ (x − 0)`, which selects `x + 0` where it holds (nowhere). -/
def ssp (x : EReal) : EReal :=
  Scalar.select (Ideal.cmp .une (x - zeroW) (x - zeroW)) (x + zeroW)
    (max x zeroW + Ideal.log1p (Ideal.exp (-(max (x - zeroW) (-(x - zeroW)))))) - shiftW

/-- The kernel body's spelling of the same number: the ordered "not equal" and `0 − |·|`. -/
theorem ssp_kernel (x : EReal) :
    Scalar.select (Ideal.cmp .one (x - zeroW) (x - zeroW)) (x + zeroW)
      (max x zeroW + Ideal.log1p (Ideal.exp (zeroW - max (x - zeroW) (-(x - zeroW))))) - shiftW = ssp x := by
  have hz : zeroW - max (x - zeroW) (-(x - zeroW)) = -(max (x - zeroW) (-(x - zeroW))) := by
    rw [show zeroW = (0 : EReal) from Ideal.ofBits_zero_f32, zero_sub]
  rw [hz]
  rfl

/-! ## The activation on an array, in the two spellings -/

variable {s : Shape}

/-- The activation applied to every entry. -/
def sspV (x : FVec Ideal s .f32) : FVec Ideal s .f32 := fun i => ssp (x i)

/-- A kernel body's spelling on a vector: scalar constants splat to the shape. -/
def sspK (x : FVec Ideal s .f32) : FVec Ideal s .f32 :=
  subf (select (cmpf .one (subf x (broadcast s (Scalar.ofBits (F := Ideal) .f32 0x00000000#32))) (subf x (broadcast s (Scalar.ofBits (F := Ideal) .f32 0x00000000#32))))
      (addf x (broadcast s (Scalar.ofBits (F := Ideal) .f32 0x00000000#32)))
      (addf (maximumf x (broadcast s (Scalar.ofBits (F := Ideal) .f32 0x00000000#32)))
        (log1p (exp (subf (broadcast s (Scalar.ofBits (F := Ideal) .f32 0x00000000#32)) (absf (subf x (broadcast s (Scalar.ofBits (F := Ideal) .f32 0x00000000#32)))))))))
    (broadcast s (Scalar.ofBits (F := Ideal) .f32 0x3F317218#32))

theorem sspK_eq (x : FVec Ideal s .f32) : sspK x = sspV x := funext fun i => ssp_kernel (x i)

/-- The host's spelling: rank-0 constants broadcast to the shape, `abs`, `negate`, `exponential`, `log_plus_one`. -/
def sspH (h0 : (⟨0, ![]⟩ : Shape).BroadcastsInDim s ![]) (x : FVec Ideal s .f32) : FVec Ideal s .f32 :=
  subf (select (cmpf .une (subf x (broadcastInDim s ![] h0 (constant (F := Ideal) ⟨0, ![]⟩ .f32 0x00000000#32))) (subf x (broadcastInDim s ![] h0 (constant (F := Ideal) ⟨0, ![]⟩ .f32 0x00000000#32))))
      (addf x (broadcastInDim s ![] h0 (constant (F := Ideal) ⟨0, ![]⟩ .f32 0x00000000#32)))
      (addf (maximumf x (broadcastInDim s ![] h0 (constant (F := Ideal) ⟨0, ![]⟩ .f32 0x00000000#32)))
        (Host.log1p (Host.exp (Host.negf (Host.absf (subf x (broadcastInDim s ![] h0 (constant (F := Ideal) ⟨0, ![]⟩ .f32 0x00000000#32)))))))))
    (broadcastInDim s ![] h0 (constant (F := Ideal) ⟨0, ![]⟩ .f32 0x3F317218#32))

theorem sspH_eq (h0 : (⟨0, ![]⟩ : Shape).BroadcastsInDim s ![]) (x : FVec Ideal s .f32) : sspH h0 x = sspV x := rfl

/-! ## A dense layer in the two spellings -/

variable {A A' K H M : Nat}

/-- A kernel body's dense layer on a block of rows: rows and weights rounded to bf16, the matrix unit's product into a zero
    accumulator, the bias row (recast to its own shape) repeated down the rows. -/
def denseK (d : DotDims ⟨2, ![A, K]⟩ ⟨2, ![K, M]⟩ ⟨2, ![A, M]⟩) (ht : FTy.bf16.bits < FTy.f32.bits)
    (hc : (⟨2, ![1, M]⟩ : Shape).ShapeCasts ⟨2, ![1, M]⟩) (hb : (⟨2, ![1, M]⟩ : Shape).Broadcasts ⟨2, ![A, M]⟩)
    (x : FVec Ideal ⟨2, ![A, K]⟩ .f32) (w : FVec Ideal ⟨2, ![K, M]⟩ .f32) (b : FVec Ideal ⟨2, ![1, M]⟩ .f32) :
    FVec Ideal ⟨2, ![A, M]⟩ .f32 :=
  addf (matmul d none (truncf .bf16 x ht) (truncf .bf16 w ht) (constant ⟨2, ![A, M]⟩ .f32 0x00000000#32))
    (broadcastTo ⟨2, ![A, M]⟩ (shapeCast ⟨2, ![1, M]⟩ b hc) hb)

/-- It is `rows · weights + bias row`, entry by entry. -/
theorem denseK_eq {d : DotDims ⟨2, ![A, K]⟩ ⟨2, ![K, M]⟩ ⟨2, ![A, M]⟩} (hd : d = DotDims.plain A K M)
    (ht : FTy.bf16.bits < FTy.f32.bits) (hc : (⟨2, ![1, M]⟩ : Shape).ShapeCasts ⟨2, ![1, M]⟩)
    (hb : (⟨2, ![1, M]⟩ : Shape).Broadcasts ⟨2, ![A, M]⟩)
    (x : FVec Ideal ⟨2, ![A, K]⟩ .f32) (w : FVec Ideal ⟨2, ![K, M]⟩ .f32) (b : FVec Ideal ⟨2, ![1, M]⟩ .f32) :
    denseK d ht hc hb x w b = affine x (truncf .bf16 w ht) b := by
  subst hd
  funext i
  obtain ⟨p, q, rfl⟩ : ∃ (p : Fin A) (q : Fin M), i = ix2 p q := ⟨i 0, i 1, eq_ix2 i⟩
  unfold denseK
  rw [shapeCast_self]
  exact body_apply none x (truncf .bf16 w ht) b ht hb p q

/-- The host's dense layer on all the rows: `dot_general` plus the bias lifted to a row and then to the rows. -/
def denseH (d : DotDims ⟨2, ![A, K]⟩ ⟨2, ![K, M]⟩ ⟨2, ![A, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (X : FVec Ideal ⟨2, ![A, K]⟩ .f32) (W : FVec Ideal ⟨2, ![K, M]⟩ .f32) (b : FVec Ideal ⟨1, ![M]⟩ .f32) :
    FVec Ideal ⟨2, ![A, M]⟩ .f32 :=
  addf (Host.dotGeneral d none X W) (broadcastInDim ⟨2, ![A, M]⟩ ![0, 1] h2 (broadcastInDim ⟨2, ![1, M]⟩ ![1] h1 b))

/-- It is the same function of the weights rounded to bf16 and the bias recast to a row. -/
theorem denseH_eq {d : DotDims ⟨2, ![A, K]⟩ ⟨2, ![K, M]⟩ ⟨2, ![A, M]⟩} (hd : d = DotDims.plain A K M)
    (h1 : (⟨1, ![M]⟩ : Shape).BroadcastsInDim ⟨2, ![1, M]⟩ ![1])
    (h2 : (⟨2, ![1, M]⟩ : Shape).BroadcastsInDim ⟨2, ![A, M]⟩ ![0, 1])
    (ht : FTy.bf16.bits < FTy.f32.bits) (hc : (⟨1, ![M]⟩ : Shape).ShapeCasts ⟨2, ![1, M]⟩)
    (X : FVec Ideal ⟨2, ![A, K]⟩ .f32) (W : FVec Ideal ⟨2, ![K, M]⟩ .f32) (b : FVec Ideal ⟨1, ![M]⟩ .f32) :
    denseH d h1 h2 X W b = affine X (truncf .bf16 W ht) (shapeCast ⟨2, ![1, M]⟩ b hc) := by
  subst hd
  exact (affine_eq_host none .single X W b ht hc h1 h2).symm

/-- Entry `(p, q)` of a dense layer reads row `p` of its input only: rows that agree give entries that agree. -/
theorem affine_rows {φw : FTy} (Xb : FVec Ideal ⟨2, ![A, K]⟩ .f32) (X : FVec Ideal ⟨2, ![A', K]⟩ .f32)
    (W : FVec Ideal ⟨2, ![K, M]⟩ φw) (b : FVec Ideal ⟨2, ![1, M]⟩ .f32) (p : Fin A) (r : Fin A')
    (h : ∀ k : Fin K, Xb (ix2 p k) = X (ix2 r k)) (q : Fin M) :
    affine Xb W b (ix2 p q) = affine X W b (ix2 r q) := by
  rw [affine_ix2, affine_ix2]
  congr 1
  exact Finset.sum_congr rfl fun k _ => by rw [h k]

/-! ## Two layers with the activation after each (an edge network), and two layers with the activation between (an output head) -/

/-- `ssp (ssp (X·W1 + b1)·W2 + b2)`. -/
def mlp2 {φ1 φ2 : FTy} (X : FVec Ideal ⟨2, ![A, K]⟩ .f32) (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) : FVec Ideal ⟨2, ![A, M]⟩ .f32 :=
  sspV (affine (sspV (affine X W1 b1)) W2 b2)

theorem mlp2_rows {φ1 φ2 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) (p : Fin A) (r : Fin A')
    (h : ∀ k : Fin K, Xb (ix2 p k) = X (ix2 r k)) (q : Fin M) :
    mlp2 Xb W1 b1 W2 b2 (ix2 p q) = mlp2 X W1 b1 W2 b2 (ix2 r q) := by
  show ssp (affine (sspV (affine Xb W1 b1)) W2 b2 (ix2 p q)) = ssp (affine (sspV (affine X W1 b1)) W2 b2 (ix2 r q))
  refine congrArg ssp ?_
  exact affine_rows _ _ W2 b2 p r (fun k => congrArg ssp (affine_rows Xb X W1 b1 p r h k)) q

/-- `ssp (X·Wo + bo)·Wp + bp`. -/
def proj2 {φ1 φ2 : FTy} (X : FVec Ideal ⟨2, ![A, K]⟩ .f32) (Wo : FVec Ideal ⟨2, ![K, H]⟩ φ1) (bo : FVec Ideal ⟨2, ![1, H]⟩ .f32)
    (Wp : FVec Ideal ⟨2, ![H, M]⟩ φ2) (bp : FVec Ideal ⟨2, ![1, M]⟩ .f32) : FVec Ideal ⟨2, ![A, M]⟩ .f32 :=
  affine (sspV (affine X Wo bo)) Wp bp

theorem proj2_rows {φ1 φ2 : FTy} (Xb : FVec Ideal ⟨2, ![A, K]⟩ .f32) (X : FVec Ideal ⟨2, ![A', K]⟩ .f32)
    (Wo : FVec Ideal ⟨2, ![K, H]⟩ φ1) (bo : FVec Ideal ⟨2, ![1, H]⟩ .f32)
    (Wp : FVec Ideal ⟨2, ![H, M]⟩ φ2) (bp : FVec Ideal ⟨2, ![1, M]⟩ .f32) (p : Fin A) (r : Fin A')
    (h : ∀ k : Fin K, Xb (ix2 p k) = X (ix2 r k)) (q : Fin M) :
    proj2 Xb Wo bo Wp bp (ix2 p q) = proj2 X Wo bo Wp bp (ix2 r q) :=
  affine_rows _ _ Wp bp p r (fun k => congrArg ssp (affine_rows Xb X Wo bo p r h k)) q

/-- The edge network as a kernel body spells it on a block of rows. -/
def mlp2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  sspK (denseK d2 ht hc2 hb2 (sspK (denseK d1 ht hc1 hb1 x0 x1 x2)) x3 x4)

theorem mlp2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    mlp2K d1 d2 ht hc1 hb1 hc2 hb2 x0 x1 x2 x3 x4 = mlp2 x0 (truncf .bf16 x1 ht) x2 (truncf .bf16 x3 ht) x4 := by
  unfold mlp2K mlp2
  rw [denseK_eq hd1, sspK_eq, denseK_eq hd2, sspK_eq]

/-- The output head as a kernel body spells it on a block of rows. -/
def proj2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  denseK d2 ht hc2 hb2 (sspK (denseK d1 ht hc1 hb1 x0 x1 x2)) x3 x4

theorem proj2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    proj2K d1 d2 ht hc1 hb1 hc2 hb2 x0 x1 x2 x3 x4 = proj2 x0 (truncf .bf16 x1 ht) x2 (truncf .bf16 x3 ht) x4 := by
  unfold proj2K proj2
  rw [denseK_eq hd1, sspK_eq, denseK_eq hd2]

end Idealize.ShloMosaic.SoftplusLayers

end
-- ==== Proof.LibReluMlp.lean ====
/-
  Dense layers `rows · weights + bias row` followed by the rectifier `max(·, 0)`, and the logistic function `1 / (1 + e⁻ˣ)`
  after a last layer, each in two spellings that denote one function of the extended reals:

  * a kernel body's — a block of rows, rows and weights rounded to bf16 (the identity here), the matrix unit's product into a
    zero accumulator, the bias a `[1, M]` row repeated down the rows, the zero a scalar splat to the shape, the logistic
    function one operation;
  * the host's — `dot_general`, the bias `[M]` lifted to `[1, M]` and then to `[A, M]`, the zero and the one rank-0 arrays
    broadcast to the shape, the logistic function spelled `1 / (1 + exp(−x))`.

  Entry `(p, q)` of every layer reads row `p` of its input only, so a block of rows of the result is the result of that
  block of rows. Two stacks are named: two rectified layers (`phi2`), and two rectified layers, a third layer and the
  logistic function (`rho3`).
-/
import Idealize.ShloMosaic.PureOps.Ideal.Laws
import Idealize.ShloMosaic.Lib.ValueIdx
import Idealize.ShloMosaic.Lib.ValueLayout
import Idealize.ShloMosaic.Lib.Pipeline.Value
import proofs.«156455_g48490180772547_cont_8to1_c_629_4_alg».proof.Proof.LibPlainDot
import proofs.«156455_g48490180772547_cont_8to1_c_629_4_alg».proof.Proof.LibAffine
import proofs.«156455_g48490180772547_cont_8to1_c_629_4_alg».proof.Proof.LibSoftplusLayers

noncomputable section

namespace Idealize.ShloMosaic.ReluMlp

open Idealize.ShloMosaic.ValueIdx Idealize.ShloMosaic.Affine Idealize.ShloMosaic.SoftplusLayers

/-! ## The rectifier and the logistic function on an array, in the two spellings -/

variable {s : Shape}

/-- `max(x, 0)`, the zero kept as the f32 word both spellings carry. -/
def relu (x : EReal) : EReal := max x zeroW

/-- The rectifier applied to every entry. -/
def reluV (x : FVec Ideal s .f32) : FVec Ideal s .f32 := fun i => relu (x i)

/-- A kernel body's spelling: the scalar zero splat to the shape. -/
def reluK (x : FVec Ideal s .f32) : FVec Ideal s .f32 :=
  maximumf x (broadcast s (Scalar.ofBits (F := Ideal) .f32 0x00000000#32))

theorem reluK_eq (x : FVec Ideal s .f32) : reluK x = reluV x := rfl

/-- The host's spelling: the rank-0 zero broadcast to the shape. -/
def reluH (h0 : (⟨0, ![]⟩ : Shape).BroadcastsInDim s ![]) (x : FVec Ideal s .f32) : FVec Ideal s .f32 :=
  maximumf x (broadcastInDim s ![] h0 (constant (F := Ideal) ⟨0, ![]⟩ .f32 0x00000000#32))

theorem reluH_eq (h0 : (⟨0, ![]⟩ : Shape).BroadcastsInDim s ![]) (x : FVec Ideal s .f32) : reluH h0 x = reluV x := rfl

/-- The f32 word of `1.0` is the real one. -/
theorem one_word : Ideal.ofBits .f32 0x3F800000#32 = 1 := by
  simp [Ideal.ofBits, Ideal.ieee, -EReal.coe_mul]; norm_num

/-- The logistic function applied to every entry. -/
def sigV (x : FVec Ideal s .f32) : FVec Ideal s .f32 := fun i => Ideal.logistic (x i)

/-- A kernel body's spelling is the one operation. -/
theorem sigK_eq (x : FVec Ideal s .f32) : logistic x = sigV x := rfl

/-- The host's spelling: `1 / (1 + exp(−x))` with the ones rank-0 arrays broadcast to the shape. -/
def sigH (h0 : (⟨0, ![]⟩ : Shape).BroadcastsInDim s ![]) (x : FVec Ideal s .f32) : FVec Ideal s .f32 :=
  Host.divf (broadcastInDim s ![] h0 (constant (F := Ideal) ⟨0, ![]⟩ .f32 0x3F800000#32))
    (addf (broadcastInDim s ![] h0 (constant (F := Ideal) ⟨0, ![]⟩ .f32 0x3F800000#32)) (Host.exp (Host.negf x)))

theorem sigH_eq (h0 : (⟨0, ![]⟩ : Shape).BroadcastsInDim s ![]) (x : FVec Ideal s .f32) : sigH h0 x = sigV x := by
  funext i
  show Ideal.div (Ideal.ofBits .f32 0x3F800000#32) (Ideal.ofBits .f32 0x3F800000#32 + Ideal.exp (-(x i))) = Ideal.logistic (x i)
  rw [one_word]
  rfl

/-! ## Rectified layers -/

variable {A A' K H H' M : Nat}

/-- `max(X·W + b, 0)`. -/
def layer {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  reluV (affine X W b)

/-- Entry `(p, q)` of a rectified layer reads row `p` of its input only. -/
theorem layer_rows {φw : FTy} (Xb : FVec Ideal ⟨2, ![A, K]⟩ .f32) (X : FVec Ideal ⟨2, ![A', K]⟩ .f32)
    (W : FVec Ideal ⟨2, ![K, M]⟩ φw) (b : FVec Ideal ⟨2, ![1, M]⟩ .f32) (p : Fin A) (r : Fin A')
    (h : ∀ k : Fin K, Xb (ix2 p k) = X (ix2 r k)) (q : Fin M) :
    layer Xb W b (ix2 p q) = layer X W b (ix2 r q) :=
  congrArg relu (affine_rows Xb X W b p r h q)

/-- Two rectified layers: `max(max(X·W1 + b1, 0)·W2 + b2, 0)`. -/
def phi2 {φ1 φ2 : FTy} (X : FVec Ideal ⟨2, ![A, K]⟩ .f32) (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) : FVec Ideal ⟨2, ![A, M]⟩ .f32 :=
  layer (layer X W1 b1) W2 b2

theorem phi2_rows {φ1 φ2 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, M]⟩ φ2) (b2 : FVec Ideal ⟨2, ![1, M]⟩ .f32) (p : Fin A) (r : Fin A')
    (h : ∀ k : Fin K, Xb (ix2 p k) = X (ix2 r k)) (q : Fin M) :
    phi2 Xb W1 b1 W2 b2 (ix2 p q) = phi2 X W1 b1 W2 b2 (ix2 r q) :=
  layer_rows _ _ W2 b2 p r (fun k => layer_rows Xb X W1 b1 p r h k) q

/-- Two rectified layers, a third layer and the logistic function. -/
def rho3 {φ1 φ2 φ3 : FTy} (X : FVec Ideal ⟨2, ![A, K]⟩ .f32) (W1 : FVec Ideal ⟨2, ![K, H]⟩ φ1) (b1 : FVec Ideal ⟨2, ![1, H]⟩ .f32)
    (W2 : FVec Ideal ⟨2, ![H, H']⟩ φ2) (b2 : FVec Ideal ⟨2, ![1, H']⟩ .f32)
    (W3 : FVec Ideal ⟨2, ![H', M]⟩ φ3) (b3 : FVec Ideal ⟨2, ![1, M]⟩ .f32) : FVec Ideal ⟨2, ![A, M]⟩ .f32 :=
  sigV (affine (phi2 X W1 b1 W2 b2) W3 b3)

theorem rho3_rows {φ1 φ2 φ3 : FTy} (Xb : FVec Ideal ⟨2, ![A, K]⟩ .f32) (X : FVec Ideal ⟨2, ![A', K]⟩ .f32)
    (W1 : FVec Ideal ⟨2, ![K, H]⟩ φ1) (b1 : FVec Ideal ⟨2, ![1, H]⟩ .f32)
    (W2 : FVec Ideal ⟨2, ![H, H']⟩ φ2) (b2 : FVec Ideal ⟨2, ![1, H']⟩ .f32)
    (W3 : FVec Ideal ⟨2, ![H', M]⟩ φ3) (b3 : FVec Ideal ⟨2, ![1, M]⟩ .f32) (p : Fin A) (r : Fin A')
    (h : ∀ k : Fin K, Xb (ix2 p k) = X (ix2 r k)) (q : Fin M) :
    rho3 Xb W1 b1 W2 b2 W3 b3 (ix2 p q) = rho3 X W1 b1 W2 b2 W3 b3 (ix2 r q) :=
  congrArg Ideal.logistic
    (affine_rows _ _ W3 b3 p r (fun k => phi2_rows Xb X W1 b1 W2 b2 p r h k) q)

/-! ## The stacks as a kernel body spells them on a block of rows -/

def phi2K (d1 : DotDims ⟨2, ![A, K]⟩ ⟨2, ![K, H]⟩ ⟨2, ![A, H]⟩) (d2 : DotDims ⟨2, ![A, H]⟩ ⟨2, ![H, M]⟩ ⟨2, ![A, M]⟩)
    (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) : FVec Ideal ⟨2, ![A, M]⟩ .f32 :=
  reluK (denseK d2 ht hc2 hb2 (reluK (denseK d1 ht hc1 hb1 x0 x1 x2)) x3 x4)

theorem phi2K_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M) (ht : FTy.bf16.bits < FTy.f32.bits)
    (hc1 : (⟨2, ![1, H]⟩ : Shape).ShapeCasts ⟨2, ![1, H]⟩) (hb1 : (⟨2, ![1, H]⟩ : Shape).Broadcasts ⟨2, ![A, H]⟩)
    (hc2 : (⟨2, ![1, M]⟩ : Shape).ShapeCasts ⟨2, ![1, M]⟩) (hb2 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, M]⟩ .f32) (x4 : FVec Ideal ⟨2, ![1, M]⟩ .f32) :
    phi2K d1 d2 ht hc1 hb1 hc2 hb2 x0 x1 x2 x3 x4 = phi2 x0 (truncf .bf16 x1 ht) x2 (truncf .bf16 x3 ht) x4 := by
  unfold phi2K phi2 layer
  rw [denseK_eq hd1, reluK_eq, denseK_eq hd2, reluK_eq]

/-- The second stack on a block of rows, the block first recast to its own shape. -/
def rho3K (d1 : DotDims ⟨2, ![A, K]⟩ ⟨2, ![K, H]⟩ ⟨2, ![A, H]⟩) (d2 : DotDims ⟨2, ![A, H]⟩ ⟨2, ![H, H']⟩ ⟨2, ![A, H']⟩)
    (d3 : DotDims ⟨2, ![A, H']⟩ ⟨2, ![H', M]⟩ ⟨2, ![A, M]⟩) (ht : FTy.bf16.bits < FTy.f32.bits)
    (hc0 : (⟨2, ![A, K]⟩ : Shape).ShapeCasts ⟨2, ![A, K]⟩)
    (hc1 : (⟨2, ![1, H]⟩ : Shape).ShapeCasts ⟨2, ![1, H]⟩) (hb1 : (⟨2, ![1, H]⟩ : Shape).Broadcasts ⟨2, ![A, H]⟩)
    (hc2 : (⟨2, ![1, H']⟩ : Shape).ShapeCasts ⟨2, ![1, H']⟩) (hb2 : (⟨2, ![1, H']⟩ : Shape).Broadcasts ⟨2, ![A, H']⟩)
    (hc3 : (⟨2, ![1, M]⟩ : Shape).ShapeCasts ⟨2, ![1, M]⟩) (hb3 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, H']⟩ .f32) (x4 : FVec Ideal ⟨2, ![1, H']⟩ .f32)
    (x5 : FVec Ideal ⟨2, ![H', M]⟩ .f32) (x6 : FVec Ideal ⟨2, ![1, M]⟩ .f32) : FVec Ideal ⟨2, ![A, M]⟩ .f32 :=
  logistic (denseK d3 ht hc3 hb3 (reluK (denseK d2 ht hc2 hb2
    (reluK (denseK d1 ht hc1 hb1 (shapeCast ⟨2, ![A, K]⟩ x0 hc0) x1 x2)) x3 x4)) x5 x6)

theorem rho3K_eq {d1 : DotDims ⟨2, ![A, K]⟩ ⟨2, ![K, H]⟩ ⟨2, ![A, H]⟩} {d2 : DotDims ⟨2, ![A, H]⟩ ⟨2, ![H, H']⟩ ⟨2, ![A, H']⟩}
    {d3 : DotDims ⟨2, ![A, H']⟩ ⟨2, ![H', M]⟩ ⟨2, ![A, M]⟩}
    (hd1 : d1 = DotDims.plain A K H) (hd2 : d2 = DotDims.plain A H H') (hd3 : d3 = DotDims.plain A H' M)
    (ht : FTy.bf16.bits < FTy.f32.bits)
    (hc0 : (⟨2, ![A, K]⟩ : Shape).ShapeCasts ⟨2, ![A, K]⟩)
    (hc1 : (⟨2, ![1, H]⟩ : Shape).ShapeCasts ⟨2, ![1, H]⟩) (hb1 : (⟨2, ![1, H]⟩ : Shape).Broadcasts ⟨2, ![A, H]⟩)
    (hc2 : (⟨2, ![1, H']⟩ : Shape).ShapeCasts ⟨2, ![1, H']⟩) (hb2 : (⟨2, ![1, H']⟩ : Shape).Broadcasts ⟨2, ![A, H']⟩)
    (hc3 : (⟨2, ![1, M]⟩ : Shape).ShapeCasts ⟨2, ![1, M]⟩) (hb3 : (⟨2, ![1, M]⟩ : Shape).Broadcasts ⟨2, ![A, M]⟩)
    (x0 : FVec Ideal ⟨2, ![A, K]⟩ .f32) (x1 : FVec Ideal ⟨2, ![K, H]⟩ .f32) (x2 : FVec Ideal ⟨2, ![1, H]⟩ .f32)
    (x3 : FVec Ideal ⟨2, ![H, H']⟩ .f32) (x4 : FVec Ideal ⟨2, ![1, H']⟩ .f32)
    (x5 : FVec Ideal ⟨2, ![H', M]⟩ .f32) (x6 : FVec Ideal ⟨2, ![1, M]⟩ .f32) :
    rho3K d1 d2 d3 ht hc0 hc1 hb1 hc2 hb2 hc3 hb3 x0 x1 x2 x3 x4 x5 x6
      = rho3 x0 (truncf .bf16 x1 ht) x2 (truncf .bf16 x3 ht) x4 (truncf .bf16 x5 ht) x6 := by
  unfold rho3K rho3 phi2 layer
  rw [shapeCast_self, denseK_eq hd1, reluK_eq, denseK_eq hd2, reluK_eq, denseK_eq hd3, sigK_eq]

/-! ## The stacks as the host spells them on all the rows -/

def phi2H (d1 : DotDims ⟨2, ![A, K]⟩ ⟨2, ![K, H]⟩ ⟨2, ![A, H]⟩) (d2 : DotDims ⟨2, ![A, H]⟩ ⟨2, ![H, M]⟩ ⟨2, ![A, M]⟩)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![M]⟩ : Shape).BroadcastsInDim ⟨2, ![1, M]⟩ ![1]) (g4 : (⟨2, ![1, M]⟩ : Shape).BroadcastsInDim ⟨2, ![A, M]⟩ ![0, 1])
    (z2 : (⟨0, ![]⟩ : Shape).BroadcastsInDim ⟨2, ![A, M]⟩ ![])
    (X : FVec Ideal ⟨2, ![A, K]⟩ .f32) (W1 : FVec Ideal ⟨2, ![K, H]⟩ .f32) (b1 : FVec Ideal ⟨1, ![H]⟩ .f32)
    (W2 : FVec Ideal ⟨2, ![H, M]⟩ .f32) (b2 : FVec Ideal ⟨1, ![M]⟩ .f32) : FVec Ideal ⟨2, ![A, M]⟩ .f32 :=
  reluH z2 (denseH d2 g3 g4 (reluH z1 (denseH d1 g1 g2 X W1 b1)) W2 b2)

theorem phi2H_eq {d1 : DotDims ⟨2, ![A, K]⟩ ⟨2, ![K, H]⟩ ⟨2, ![A, H]⟩} {d2 : DotDims ⟨2, ![A, H]⟩ ⟨2, ![H, M]⟩ ⟨2, ![A, M]⟩}
    (hd1 : d1 = DotDims.plain A K H) (hd2 : d2 = DotDims.plain A H M)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![M]⟩ : Shape).BroadcastsInDim ⟨2, ![1, M]⟩ ![1]) (g4 : (⟨2, ![1, M]⟩ : Shape).BroadcastsInDim ⟨2, ![A, M]⟩ ![0, 1])
    (z2 : (⟨0, ![]⟩ : Shape).BroadcastsInDim ⟨2, ![A, M]⟩ ![])
    (ht : FTy.bf16.bits < FTy.f32.bits)
    (hc1 : (⟨1, ![H]⟩ : Shape).ShapeCasts ⟨2, ![1, H]⟩) (hc2 : (⟨1, ![M]⟩ : Shape).ShapeCasts ⟨2, ![1, M]⟩)
    (X : FVec Ideal ⟨2, ![A, K]⟩ .f32) (W1 : FVec Ideal ⟨2, ![K, H]⟩ .f32) (b1 : FVec Ideal ⟨1, ![H]⟩ .f32)
    (W2 : FVec Ideal ⟨2, ![H, M]⟩ .f32) (b2 : FVec Ideal ⟨1, ![M]⟩ .f32) :
    phi2H d1 d2 g1 g2 z1 g3 g4 z2 X W1 b1 W2 b2
      = phi2 X (truncf .bf16 W1 ht) (shapeCast ⟨2, ![1, H]⟩ b1 hc1) (truncf .bf16 W2 ht) (shapeCast ⟨2, ![1, M]⟩ b2 hc2) := by
  unfold phi2H phi2 layer
  rw [denseH_eq hd1 g1 g2 ht hc1, reluH_eq, denseH_eq hd2 g3 g4 ht hc2, reluH_eq]

def rho3H (d1 : DotDims ⟨2, ![A, K]⟩ ⟨2, ![K, H]⟩ ⟨2, ![A, H]⟩) (d2 : DotDims ⟨2, ![A, H]⟩ ⟨2, ![H, H']⟩ ⟨2, ![A, H']⟩)
    (d3 : DotDims ⟨2, ![A, H']⟩ ⟨2, ![H', M]⟩ ⟨2, ![A, M]⟩)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![H']⟩ : Shape).BroadcastsInDim ⟨2, ![1, H']⟩ ![1]) (g4 : (⟨2, ![1, H']⟩ : Shape).BroadcastsInDim ⟨2, ![A, H']⟩ ![0, 1])
    (z2 : (⟨0, ![]⟩ : Shape).BroadcastsInDim ⟨2, ![A, H']⟩ ![])
    (g5 : (⟨1, ![M]⟩ : Shape).BroadcastsInDim ⟨2, ![1, M]⟩ ![1]) (g6 : (⟨2, ![1, M]⟩ : Shape).BroadcastsInDim ⟨2, ![A, M]⟩ ![0, 1])
    (z3 : (⟨0, ![]⟩ : Shape).BroadcastsInDim ⟨2, ![A, M]⟩ ![])
    (X : FVec Ideal ⟨2, ![A, K]⟩ .f32) (W1 : FVec Ideal ⟨2, ![K, H]⟩ .f32) (b1 : FVec Ideal ⟨1, ![H]⟩ .f32)
    (W2 : FVec Ideal ⟨2, ![H, H']⟩ .f32) (b2 : FVec Ideal ⟨1, ![H']⟩ .f32)
    (W3 : FVec Ideal ⟨2, ![H', M]⟩ .f32) (b3 : FVec Ideal ⟨1, ![M]⟩ .f32) : FVec Ideal ⟨2, ![A, M]⟩ .f32 :=
  sigH z3 (denseH d3 g5 g6 (reluH z2 (denseH d2 g3 g4 (reluH z1 (denseH d1 g1 g2 X W1 b1)) W2 b2)) W3 b3)

theorem rho3H_eq {d1 : DotDims ⟨2, ![A, K]⟩ ⟨2, ![K, H]⟩ ⟨2, ![A, H]⟩} {d2 : DotDims ⟨2, ![A, H]⟩ ⟨2, ![H, H']⟩ ⟨2, ![A, H']⟩}
    {d3 : DotDims ⟨2, ![A, H']⟩ ⟨2, ![H', M]⟩ ⟨2, ![A, M]⟩}
    (hd1 : d1 = DotDims.plain A K H) (hd2 : d2 = DotDims.plain A H H') (hd3 : d3 = DotDims.plain A H' M)
    (g1 : (⟨1, ![H]⟩ : Shape).BroadcastsInDim ⟨2, ![1, H]⟩ ![1]) (g2 : (⟨2, ![1, H]⟩ : Shape).BroadcastsInDim ⟨2, ![A, H]⟩ ![0, 1])
    (z1 : (⟨0, ![]⟩ : Shape).BroadcastsInDim ⟨2, ![A, H]⟩ ![])
    (g3 : (⟨1, ![H']⟩ : Shape).BroadcastsInDim ⟨2, ![1, H']⟩ ![1]) (g4 : (⟨2, ![1, H']⟩ : Shape).BroadcastsInDim ⟨2, ![A, H']⟩ ![0, 1])
    (z2 : (⟨0, ![]⟩ : Shape).BroadcastsInDim ⟨2, ![A, H']⟩ ![])
    (g5 : (⟨1, ![M]⟩ : Shape).BroadcastsInDim ⟨2, ![1, M]⟩ ![1]) (g6 : (⟨2, ![1, M]⟩ : Shape).BroadcastsInDim ⟨2, ![A, M]⟩ ![0, 1])
    (z3 : (⟨0, ![]⟩ : Shape).BroadcastsInDim ⟨2, ![A, M]⟩ ![])
    (ht : FTy.bf16.bits < FTy.f32.bits)
    (hc1 : (⟨1, ![H]⟩ : Shape).ShapeCasts ⟨2, ![1, H]⟩) (hc2 : (⟨1, ![H']⟩ : Shape).ShapeCasts ⟨2, ![1, H']⟩)
    (hc3 : (⟨1, ![M]⟩ : Shape).ShapeCasts ⟨2, ![1, M]⟩)
    (X : FVec Ideal ⟨2, ![A, K]⟩ .f32) (W1 : FVec Ideal ⟨2, ![K, H]⟩ .f32) (b1 : FVec Ideal ⟨1, ![H]⟩ .f32)
    (W2 : FVec Ideal ⟨2, ![H, H']⟩ .f32) (b2 : FVec Ideal ⟨1, ![H']⟩ .f32)
    (W3 : FVec Ideal ⟨2, ![H', M]⟩ .f32) (b3 : FVec Ideal ⟨1, ![M]⟩ .f32) :
    rho3H d1 d2 d3 g1 g2 z1 g3 g4 z2 g5 g6 z3 X W1 b1 W2 b2 W3 b3
      = rho3 X (truncf .bf16 W1 ht) (shapeCast ⟨2, ![1, H]⟩ b1 hc1) (truncf .bf16 W2 ht) (shapeCast ⟨2, ![1, H']⟩ b2 hc2)
          (truncf .bf16 W3 ht) (shapeCast ⟨2, ![1, M]⟩ b3 hc3) := by
  unfold rho3H rho3 phi2 layer
  rw [denseH_eq hd1 g1 g2 ht hc1, reluH_eq, denseH_eq hd2 g3 g4 ht hc2, reluH_eq, denseH_eq hd3 g5 g6 ht hc3, sigH_eq]

end Idealize.ShloMosaic.ReluMlp

end
-- ==== Proof.GcnSpec.lean ====
/-
  A graph-convolution layer over the extended reals, and four of them stacked.

  One layer takes node features `H` (one row per node), a weight matrix `W`, a mixing matrix `A` (one row per output node,
  one column per input node) and a bias row `b`, and returns `max(A · (H · W) + b, 0)`: entry `(p, q)` is
  `max(Σ_k A(p,k) · (Σ_l H(k,l) · W(l,q)) + b(0,q), 0)`. Both sums are finite sums in the order written: the inner product
  `H · W` is formed first and then mixed by `A`; nothing is rearranged, so no finiteness of the entries is needed.

  Entry `(p, q)` of a layer reads row `p` of `A` only (and all of `H`, `W`, `b`), so a block of rows of the result is the
  layer of that block of rows of `A`.

  The element formats of the operands are parameters: on the extended reals every format is the same set, so they do not
  change the function; they are kept so that an operand of any format is accepted as it stands.
-/
import Idealize.ShloMosaic.PureOps.Ideal.Laws
import Idealize.ShloMosaic.Lib.ValueIdx
import Idealize.ShloMosaic.Lib.ValueLayout
import Idealize.ShloMosaic.Lib.Pipeline.Value
import proofs.«156455_g48490180772547_cont_8to1_c_629_4_alg».proof.Proof.LibReluMlp

noncomputable section

namespace Cert.Gcn

open Idealize.ShloMosaic Idealize.ShloMosaic.ValueIdx

variable {P M K N : Nat}

/-! ## The matrix product -/

/-- `X · W`: entry `(r, j)` is `Σ_k X(r,k) · W(k,j)`. -/
def prod {φ₁ φ₂ : FTy} (X : FVec Ideal ⟨2, ![M, K]⟩ φ₁) (W : FVec Ideal ⟨2, ![K, N]⟩ φ₂) : FVec Ideal ⟨2, ![M, N]⟩ .f32 :=
  fun i => ∑ k : Fin K, X (ix2 ⟨(i 0).val, idx2_lt0 i⟩ k) * W (ix2 k ⟨(i 1).val, idx2_lt1 i⟩)

theorem prod_ix2 {φ₁ φ₂ : FTy} (X : FVec Ideal ⟨2, ![M, K]⟩ φ₁) (W : FVec Ideal ⟨2, ![K, N]⟩ φ₂) (r : Fin M) (j : Fin N) :
    prod X W (ix2 r j) = ∑ k : Fin K, X (ix2 r k) * W (ix2 k j) := rfl

/-- The operands' formats do not matter. -/
theorem prod_fmt {φ₁ φ₂ ψ₁ ψ₂ : FTy} (X : FVec Ideal ⟨2, ![M, K]⟩ φ₁) (W : FVec Ideal ⟨2, ![K, N]⟩ φ₂) :
    prod (φ₁ := ψ₁) (φ₂ := ψ₂) X W = prod X W := rfl

/-- Row `r` of a product reads row `r` of the left operand only. -/
theorem prod_rows {M' : Nat} {φ₁ φ₁' φ₂ : FTy} (Xb : FVec Ideal ⟨2, ![M, K]⟩ φ₁) (X : FVec Ideal ⟨2, ![M', K]⟩ φ₁')
    (W : FVec Ideal ⟨2, ![K, N]⟩ φ₂) (p : Fin M) (r : Fin M') (h : ∀ k : Fin K, Xb (ix2 p k) = X (ix2 r k)) (j : Fin N) :
    prod Xb W (ix2 p j) = prod X W (ix2 r j) := by
  rw [prod_ix2, prod_ix2]
  exact Finset.sum_congr rfl fun k _ => by rw [h k]

/-! ## One layer -/

/-- `max(A · (H · W) + b, 0)`: entry `(p, q)` is `max(Σ_k A(p,k) · (Σ_l H(k,l) · W(l,q)) + b(0,q), 0)`. -/
def gcnLayer {φA φH φW : FTy} (A : FVec Ideal ⟨2, ![P, N]⟩ φA) (H : FVec Ideal ⟨2, ![N, K]⟩ φH) (W : FVec Ideal ⟨2, ![K, M]⟩ φW)
    (b : FVec Ideal ⟨2, ![1, M]⟩ .f32) : FVec Ideal ⟨2, ![P, M]⟩ .f32 :=
  ReluMlp.layer (A := P) (K := N) (M := M) (φw := .f32) A (prod H W) b

/-- A layer is the rectified dense layer of the mixing matrix against the product `H · W`. -/
theorem gcnLayer_eq_layer {φA φH φW : FTy} (A : FVec Ideal ⟨2, ![P, N]⟩ φA) (H : FVec Ideal ⟨2, ![N, K]⟩ φH)
    (W : FVec Ideal ⟨2, ![K, M]⟩ φW) (b : FVec Ideal ⟨2, ![1, M]⟩ .f32) :
    gcnLayer A H W b = ReluMlp.layer (A := P) (K := N) (M := M) (φw := .f32) A (prod H W) b := rfl

theorem gcnLayer_ix2 {φA φH φW : FTy} (A : FVec Ideal ⟨2, ![P, N]⟩ φA) (H : FVec Ideal ⟨2, ![N, K]⟩ φH)
    (W : FVec Ideal ⟨2, ![K, M]⟩ φW) (b : FVec Ideal ⟨2, ![1, M]⟩ .f32) (p : Fin P) (q : Fin M) :
    gcnLayer A H W b (ix2 p q)
      = max ((∑ k : Fin N, A (ix2 p k) * (∑ l : Fin K, H (ix2 k l) * W (ix2 l q))) + b (ix2 (0 : Fin 1) q))
          SoftplusLayers.zeroW := rfl

/-- The operands' formats do not matter. -/
theorem gcnLayer_fmt {φA φH φW ψA ψH ψW : FTy} (A : FVec Ideal ⟨2, ![P, N]⟩ φA) (H : FVec Ideal ⟨2, ![N, K]⟩ φH)
    (W : FVec Ideal ⟨2, ![K, M]⟩ φW) (b : FVec Ideal ⟨2, ![1, M]⟩ .f32) :
    gcnLayer (φA := ψA) (φH := ψH) (φW := ψW) A H W b = gcnLayer A H W b := rfl

/-- Entry `(p, q)` of a layer reads row `p` of the mixing matrix only: mixing matrices whose rows `p` and `r` agree give
    layers whose entries `(p, q)` and `(r, q)` agree. -/
theorem gcnLayer_rows {P' : Nat} {φA φA' φH φW : FTy} (Ab : FVec Ideal ⟨2, ![P, N]⟩ φA) (A : FVec Ideal ⟨2, ![P', N]⟩ φA')
    (H : FVec Ideal ⟨2, ![N, K]⟩ φH) (W : FVec Ideal ⟨2, ![K, M]⟩ φW) (b : FVec Ideal ⟨2, ![1, M]⟩ .f32)
    (p : Fin P) (r : Fin P') (h : ∀ k : Fin N, Ab (ix2 p k) = A (ix2 r k)) (q : Fin M) :
    gcnLayer Ab H W b (ix2 p q) = gcnLayer A H W b (ix2 r q) :=
  ReluMlp.layer_rows (A := P) (A' := P') (K := N) (M := M) (φw := .f32) Ab A (prod H W) b p r h q

/-! ## Four layers: 512 → 256 → 128 → 64 → 128 features on 4096 nodes -/

theorem casts256 : (⟨1, ![256]⟩ : Shape).ShapeCasts ⟨2, ![1, 256]⟩ := by decide
theorem casts128 : (⟨1, ![128]⟩ : Shape).ShapeCasts ⟨2, ![1, 128]⟩ := by decide
theorem casts64 : (⟨1, ![64]⟩ : Shape).ShapeCasts ⟨2, ![1, 64]⟩ := by decide

/-- The four layers, each bias vector `[M]` recast to the row `[1, M]`. -/
def gcn (x : FVec Ideal ⟨2, ![4096, 512]⟩ .f32) (adj : FVec Ideal ⟨2, ![4096, 4096]⟩ .f32)
    (W1 : FVec Ideal ⟨2, ![512, 256]⟩ .f32) (b1 : FVec Ideal ⟨1, ![256]⟩ .f32)
    (W2 : FVec Ideal ⟨2, ![256, 128]⟩ .f32) (b2 : FVec Ideal ⟨1, ![128]⟩ .f32)
    (W3 : FVec Ideal ⟨2, ![128, 64]⟩ .f32) (b3 : FVec Ideal ⟨1, ![64]⟩ .f32)
    (W4 : FVec Ideal ⟨2, ![64, 128]⟩ .f32) (b4 : FVec Ideal ⟨1, ![128]⟩ .f32) : FVec Ideal ⟨2, ![4096, 128]⟩ .f32 :=
  gcnLayer adj
    (gcnLayer adj
      (gcnLayer adj
        (gcnLayer adj x W1 (shapeCast ⟨2, ![1, 256]⟩ b1 casts256))
        W2 (shapeCast ⟨2, ![1, 128]⟩ b2 casts128))
      W3 (shapeCast ⟨2, ![1, 64]⟩ b3 casts64))
    W4 (shapeCast ⟨2, ![1, 128]⟩ b4 casts128)

end Cert.Gcn

end
-- ==== Proof.KernelPay.lean ====
/-
  The arithmetic of the kernel body, read over the extended reals.

  Each value the body stores is one of three functions of the values it loaded:

  * a matrix product `X · W`: the matrix unit's product into a zero accumulator is the finite sum over the contracted
    coordinate, a narrowing format change is the identity on the extended reals, and a recast of an array to its own shape
    is the identity;
  * the array itself: a block of the mixing matrix narrowed in format, which changes nothing;
  * a rectified layer `max(A · G + b, 0)`: the same product, plus the bias row repeated down the rows, then the maximum
    with the zero splat to the shape.

  Nothing is rearranged: every step is a congruence.
-/
import proofs.«156455_g48490180772547_cont_8to1_c_629_4_alg».proof.Proof.Gen.KernelIdeal.Skeleton
import proofs.«156455_g48490180772547_cont_8to1_c_629_4_alg».proof.Proof.GcnSpec

noncomputable section

namespace Cert.Gcn.Pay

open Idealize.ShloMosaic Idealize.ShloMosaic.ValueIdx Cert.KernelIdeal Cert.KernelIdeal.Gen

/-! ## The three shapes of arithmetic, over any extents -/

variable {A K M : Nat}

/-- A narrowing format change is the identity on the extended reals. -/
theorem truncf_id {s : Shape} {φ ψ : FTy} (a : FVec Ideal s φ) (h : ψ.bits < φ.bits) :
    (truncf ψ a h : FVec Ideal s ψ) = a := rfl

/-- The matrix unit's product into a zero accumulator is the matrix product. -/
theorem matmul_eq_prod {φ₁ φ₂ : FTy} {d : DotDims ⟨2, ![A, K]⟩ ⟨2, ![K, M]⟩ ⟨2, ![A, M]⟩} (hd : d = DotDims.plain A K M)
    (x : FVec Ideal ⟨2, ![A, K]⟩ φ₁) (w : FVec Ideal ⟨2, ![K, M]⟩ φ₂) :
    matmul d none x w (constant ⟨2, ![A, M]⟩ .f32 0x00000000#32) = prod x w := by
  subst hd
  funext i
  exact PlainDot.matmul_apply none x w i

/-- The body's rectified layer: the product into a zero accumulator, plus the bias row repeated down the rows, then the
    maximum with the scalar zero splat to the shape. -/
theorem layerK_eq {φx φw : FTy} {d : DotDims ⟨2, ![A, K]⟩ ⟨2, ![K, M]⟩ ⟨2, ![A, M]⟩} (hd : d = DotDims.plain A K M)
    (hb : (⟨2, ![1, M]⟩ : Shape).Broadcasts ⟨2, ![A, M]⟩)
    (x : FVec Ideal ⟨2, ![A, K]⟩ φx) (w : FVec Ideal ⟨2, ![K, M]⟩ φw) (b : FVec Ideal ⟨2, ![1, M]⟩ .f32) :
    maximumf (addf (matmul d none x w (constant ⟨2, ![A, M]⟩ .f32 0x00000000#32))
        (broadcastTo ⟨2, ![A, M]⟩ b hb))
      (broadcast ⟨2, ![A, M]⟩ (Scalar.ofBits (F := Ideal) .f32 0x00000000#32))
      = ReluMlp.layer (A := A) (K := K) (M := M) (φw := φw) x w b := by
  subst hd
  funext i
  obtain ⟨p, q, rfl⟩ : ∃ (p : Fin A) (q : Fin M), i = ix2 p q := ⟨i 0, i 1, eq_ix2 i⟩
  refine congrArg (fun t => max t SoftplusLayers.zeroW) ?_
  refine (addf_apply _ _ _).trans ?_
  rw [Affine.affine_ix2]
  refine congrArg₂ (· + ·) ?_ ?_
  · exact PlainDot.matmul_apply_ix2 none x w p q
  · exact broadcastTo_1b_ab_apply b hb p q

/-! ## The products the body stores -/

theorem pay1_eq (v9 : Vec Ideal S4096x512 .bf16) (v11 : Vec Ideal S512x256 .bf16) :
    k0_pay1 (F := Ideal) v9 v11 = prod (φ₁ := .bf16) (φ₂ := .bf16) (M := 4096) (K := 512) (N := 256) v9 v11 := by
  unfold k0_pay1
  simp only [shapeCast_self, truncf_id]
  exact matmul_eq_prod rfl v9 v11

theorem pay8_eq (v9 : Vec Ideal S4096x256 .bf16) (v10 : Vec Ideal S256x128 .bf16) :
    k0_pay8 (F := Ideal) v9 v10 = prod (φ₁ := .bf16) (φ₂ := .bf16) (M := 4096) (K := 256) (N := 128) v9 v10 := by
  unfold k0_pay8
  simp only [shapeCast_self, truncf_id]
  exact matmul_eq_prod rfl v9 v10

theorem pay10_eq (v30 : Vec Ideal S4096x128 .bf16) (v31 : Vec Ideal S128x64 .bf16) :
    k0_pay10 (F := Ideal) v30 v31 = prod (φ₁ := .bf16) (φ₂ := .bf16) (M := 4096) (K := 128) (N := 64) v30 v31 := by
  unfold k0_pay10
  simp only [shapeCast_self, truncf_id]
  exact matmul_eq_prod rfl v30 v31

theorem pay6_eq (v51 : Vec Ideal S4096x64 .bf16) (v52 : Vec Ideal S64x128 .bf16) :
    k0_pay6 (F := Ideal) v51 v52 = prod (φ₁ := .bf16) (φ₂ := .bf16) (M := 4096) (K := 64) (N := 128) v51 v52 := by
  unfold k0_pay6
  simp only [shapeCast_self, truncf_id]
  exact matmul_eq_prod rfl v51 v52

/-! ## The block of the mixing matrix the body copies -/

theorem pay2_eq (v10 : Vec Ideal S128x4096 .f32) : k0_pay2 (F := Ideal) v10 = v10 := rfl

theorem pay3_eq (v10 : Vec Ideal S128x4096 .f32) : k0_pay3 (F := Ideal) v10 = v10 := by
  unfold k0_pay3
  simp only [shapeCast_self]
  rfl

/-! ## The rectified layers the body stores -/

theorem pay9_eq (v17 : Vec Ideal S4096x4096 .bf16) (v18 : Vec Ideal S4096x128 .bf16) (v20 : Vec Ideal S1x128 .f32) :
    k0_pay9 (F := Ideal) v17 v18 v20 = ReluMlp.layer (A := 4096) (K := 4096) (M := 128) (φw := .bf16) v17 v18 v20 := by
  unfold k0_pay9
  simp only [shapeCast_self, truncf_id]
  exact layerK_eq rfl _ v17 v18 v20

theorem pay5_eq (v38 : Vec Ideal S4096x4096 .bf16) (v39 : Vec Ideal S4096x64 .bf16) (v41 : Vec Ideal S1x64 .f32) :
    k0_pay5 (F := Ideal) v38 v39 v41 = ReluMlp.layer (A := 4096) (K := 4096) (M := 64) (φw := .bf16) v38 v39 v41 := by
  unfold k0_pay5
  simp only [shapeCast_self, truncf_id]
  exact layerK_eq rfl _ v38 v39 v41

theorem pay7_eq (v59 : Vec Ideal S4096x4096 .bf16) (v60 : Vec Ideal S4096x128 .bf16) (v62 : Vec Ideal S1x128 .f32) :
    k0_pay7 (F := Ideal) v59 v60 v62 = ReluMlp.layer (A := 4096) (K := 4096) (M := 128) (φw := .bf16) v59 v60 v62 := by
  unfold k0_pay7
  simp only [shapeCast_self]
  exact layerK_eq rfl _ v59 v60 v62

/-- The row block: 128 rows of the mixing matrix against the whole product. -/
theorem pay4_eq (v10 : Vec Ideal S128x4096 .f32) (v16 : Vec Ideal S4096x256 .bf16) (v18 : Vec Ideal S1x256 .f32) :
    k0_pay4 (F := Ideal) v10 v16 v18 = ReluMlp.layer (A := 128) (K := 4096) (M := 256) (φw := .bf16) v10 v16 v18 := by
  unfold k0_pay4
  simp only [shapeCast_self, truncf_id, pay2_eq]
  exact layerK_eq rfl _ v10 v16 v18

end Cert.Gcn.Pay

end
-- ==== Proof.KIBlocks.lean ====
/-
  What each window of the kernel's call stages, at every point of its grid of 33 points, and what the host operations
  before the call left in the arrays the windows stage.

  Ten of the eleven windows have the whole array as their one block: the block index is `(0, 0)` at every point, so the
  block read back through zero offsets is the array itself. The window over the mixing matrix `[4096, 4096]` has blocks of
  128 rows and the index map `t ↦ (min t 31, 0)`: at a point `t < 32` its block is rows `128 t … 128 t + 127`, entry
  `(p, k)` of the block being entry `(128 t + p, k)` of the matrix. These hold for any float values.

  Before the call the host narrows the features and the four weight matrices to bf16 and recasts each bias vector `[M]` to
  the row `[1, M]`. On the extended reals the narrowing is the identity, so the staged features and weights are the
  arguments themselves and each staged bias row is the argument recast.
-/
import proofs.«156455_g48490180772547_cont_8to1_c_629_4_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem Idealize.ShloMosaic.ValueIdx

/-! ## The windows' blocks, for any float values -/

section AnyInstance

variable {F : FTy → Type} [FloatOps F] (m : (ℓ : Loc nD τ sig) → Buf (Elt F) ℓ)

/-- Window 0's block index is `(0, 0)` at every point. -/
theorem zero0 : ∀ (t : Fin grid0.N) (a : Fin 2), win0_0.index t a * main_v0.ty.shape.size a = 0 := by decide +kernel

/-- Window 0's block at every point is its whole array. -/
theorem blk0 (c : Dev nD) (t : Fin cfg0.N) :
    (iblk m c 0 t : Vec F S4096x512 .bf16) = (V m c main_v0 : S4096x512.Idx → Elt F .bf16) := by
  have hz : (fun a => win0_0.index t a * main_v0.ty.shape.size a) = fun _ => 0 := funext fun a => zero0 t a
  exact Memref.read_access_unit_zero (Elt F) main_v0 hz (fun a => by rw [congrFun hz a]; simp) (V m c main_v0)

/-- Window 2's block index is `(0, 0)` at every point. -/
theorem zero2 : ∀ (t : Fin grid0.N) (a : Fin 2), win0_2.index t a * main_v1.ty.shape.size a = 0 := by decide +kernel

/-- Window 2's block at every point is its whole array. -/
theorem blk2 (c : Dev nD) (t : Fin cfg0.N) :
    (iblk m c 2 t : Vec F S512x256 .bf16) = (V m c main_v1 : S512x256.Idx → Elt F .bf16) := by
  have hz : (fun a => win0_2.index t a * main_v1.ty.shape.size a) = fun _ => 0 := funext fun a => zero2 t a
  exact Memref.read_access_unit_zero (Elt F) main_v1 hz (fun a => by rw [congrFun hz a]; simp) (V m c main_v1)

/-- Window 3's block index is `(0, 0)` at every point. -/
theorem zero3 : ∀ (t : Fin grid0.N) (a : Fin 2), win0_3.index t a * main_v2.ty.shape.size a = 0 := by decide +kernel

/-- Window 3's block at every point is its whole array. -/
theorem blk3 (c : Dev nD) (t : Fin cfg0.N) :
    (iblk m c 3 t : Vec F S1x256 .f32) = (V m c main_v2 : S1x256.Idx → Elt F .f32) := by
  have hz : (fun a => win0_3.index t a * main_v2.ty.shape.size a) = fun _ => 0 := funext fun a => zero3 t a
  exact Memref.read_access_unit_zero (Elt F) main_v2 hz (fun a => by rw [congrFun hz a]; simp) (V m c main_v2)

/-- Window 4's block index is `(0, 0)` at every point. -/
theorem zero4 : ∀ (t : Fin grid0.N) (a : Fin 2), win0_4.index t a * main_v3.ty.shape.size a = 0 := by decide +kernel

/-- Window 4's block at every point is its whole array. -/
theorem blk4 (c : Dev nD) (t : Fin cfg0.N) :
    (iblk m c 4 t : Vec F S256x128 .bf16) = (V m c main_v3 : S256x128.Idx → Elt F .bf16) := by
  have hz : (fun a => win0_4.index t a * main_v3.ty.shape.size a) = fun _ => 0 := funext fun a => zero4 t a
  exact Memref.read_access_unit_zero (Elt F) main_v3 hz (fun a => by rw [congrFun hz a]; simp) (V m c main_v3)

/-- Window 5's block index is `(0, 0)` at every point. -/
theorem zero5 : ∀ (t : Fin grid0.N) (a : Fin 2), win0_5.index t a * main_v4.ty.shape.size a = 0 := by decide +kernel

/-- Window 5's block at every point is its whole array. -/
theorem blk5 (c : Dev nD) (t : Fin cfg0.N) :
    (iblk m c 5 t : Vec F S1x128 .f32) = (V m c main_v4 : S1x128.Idx → Elt F .f32) := by
  have hz : (fun a => win0_5.index t a * main_v4.ty.shape.size a) = fun _ => 0 := funext fun a => zero5 t a
  exact Memref.read_access_unit_zero (Elt F) main_v4 hz (fun a => by rw [congrFun hz a]; simp) (V m c main_v4)

/-- Window 6's block index is `(0, 0)` at every point. -/
theorem zero6 : ∀ (t : Fin grid0.N) (a : Fin 2), win0_6.index t a * main_v5.ty.shape.size a = 0 := by decide +kernel

/-- Window 6's block at every point is its whole array. -/
theorem blk6 (c : Dev nD) (t : Fin cfg0.N) :
    (iblk m c 6 t : Vec F S128x64 .bf16) = (V m c main_v5 : S128x64.Idx → Elt F .bf16) := by
  have hz : (fun a => win0_6.index t a * main_v5.ty.shape.size a) = fun _ => 0 := funext fun a => zero6 t a
  exact Memref.read_access_unit_zero (Elt F) main_v5 hz (fun a => by rw [congrFun hz a]; simp) (V m c main_v5)

/-- Window 7's block index is `(0, 0)` at every point. -/
theorem zero7 : ∀ (t : Fin grid0.N) (a : Fin 2), win0_7.index t a * main_v6.ty.shape.size a = 0 := by decide +kernel

/-- Window 7's block at every point is its whole array. -/
theorem blk7 (c : Dev nD) (t : Fin cfg0.N) :
    (iblk m c 7 t : Vec F S1x64 .f32) = (V m c main_v6 : S1x64.Idx → Elt F .f32) := by
  have hz : (fun a => win0_7.index t a * main_v6.ty.shape.size a) = fun _ => 0 := funext fun a => zero7 t a
  exact Memref.read_access_unit_zero (Elt F) main_v6 hz (fun a => by rw [congrFun hz a]; simp) (V m c main_v6)

/-- Window 8's block index is `(0, 0)` at every point. -/
theorem zero8 : ∀ (t : Fin grid0.N) (a : Fin 2), win0_8.index t a * main_v7.ty.shape.size a = 0 := by decide +kernel

/-- Window 8's block at every point is its whole array. -/
theorem blk8 (c : Dev nD) (t : Fin cfg0.N) :
    (iblk m c 8 t : Vec F S64x128 .bf16) = (V m c main_v7 : S64x128.Idx → Elt F .bf16) := by
  have hz : (fun a => win0_8.index t a * main_v7.ty.shape.size a) = fun _ => 0 := funext fun a => zero8 t a
  exact Memref.read_access_unit_zero (Elt F) main_v7 hz (fun a => by rw [congrFun hz a]; simp) (V m c main_v7)

/-- Window 9's block index is `(0, 0)` at every point. -/
theorem zero9 : ∀ (t : Fin grid0.N) (a : Fin 2), win0_9.index t a * main_v8.ty.shape.size a = 0 := by decide +kernel

/-- Window 9's block at every point is its whole array. -/
theorem blk9 (c : Dev nD) (t : Fin cfg0.N) :
    (iblk m c 9 t : Vec F S1x128 .f32) = (V m c main_v8 : S1x128.Idx → Elt F .f32) := by
  have hz : (fun a => win0_9.index t a * main_v8.ty.shape.size a) = fun _ => 0 := funext fun a => zero9 t a
  exact Memref.read_access_unit_zero (Elt F) main_v8 hz (fun a => by rw [congrFun hz a]; simp) (V m c main_v8)

/-- At a point `t < 32` the block index of the window over the mixing matrix is `(t, 0)`. -/
theorem idx1 : ∀ t : Fin grid0.N, t.val < 32 → win0_1.index t 0 = t.val ∧ win0_1.index t 1 = 0 := by decide +kernel

/-- At a point `t < 32` the block of the window over the mixing matrix is rows `128 t … 128 t + 127` of it. -/
theorem blk1_apply (c : Dev nD) (t : Fin cfg0.N) (ht : t.val < 32) (p : Fin 128) (k : Fin 4096) :
    (iblk m c 1 t : Vec F S128x4096 .f32) (ix2 p k)
      = (V m c main_arg1 : S4096x4096.Idx → Elt F .f32) (ix2 ⟨128 * t.val + p.val, by omega⟩ k) := by
  have hi := idx1 t ht
  unfold iblk
  rw [View.read_apply]
  show V m c main_arg1 _ = V m c main_arg1 _
  congr 1
  funext a
  apply Fin.ext
  match a with
  | ⟨0, _⟩ => show win0_1.index t 0 * 128 + 1 * p.val = 128 * t.val + p.val; rw [hi.1]; omega
  | ⟨1, _⟩ => show win0_1.index t 1 * 4096 + 1 * k.val = k.val; rw [hi.2]; omega

/-- The same against the mixing matrix as launched: no host operation before the call writes it. -/
theorem blk1_apply_arg (c : Dev nD) (t : Fin cfg0.N) (ht : t.val < 32) (p : Fin 128) (k : Fin 4096) :
    (iblk m c 1 t : Vec F S128x4096 .f32) (ix2 p k)
      = (m ((c : Thread nD τ).loc main_arg1) : S4096x4096.Idx → Elt F .f32) (ix2 ⟨128 * t.val + p.val, by omega⟩ k) := by
  rw [blk1_apply m c t ht p k, V_main_arg1]

end AnyInstance

/-! ## What the host operations before the call wrote, on the extended reals -/

section AtIdeal

variable (m : (ℓ : Loc nD τ sig) → Buf (Elt Ideal) ℓ)

/-- `main_v0` is `main_arg0` narrowed to bf16: on the extended reals, `main_arg0` itself. -/
theorem V_v0 (c : Dev nD) :
    (V (F := Ideal) m c main_v0 : S4096x512.Idx → EReal) = (m ((c : Thread nD τ).loc main_arg0) : S4096x512.Idx → EReal) := by
  dsimp only [Gen.V, Gen.hostOps0]; after_results; rfl

/-- `main_v1` is `main_arg2` narrowed to bf16: on the extended reals, `main_arg2` itself. -/
theorem V_v1 (c : Dev nD) :
    (V (F := Ideal) m c main_v1 : S512x256.Idx → EReal) = (m ((c : Thread nD τ).loc main_arg2) : S512x256.Idx → EReal) := by
  dsimp only [Gen.V, Gen.hostOps0]; after_results; rfl

/-- `main_v3` is `main_arg4` narrowed to bf16: on the extended reals, `main_arg4` itself. -/
theorem V_v3 (c : Dev nD) :
    (V (F := Ideal) m c main_v3 : S256x128.Idx → EReal) = (m ((c : Thread nD τ).loc main_arg4) : S256x128.Idx → EReal) := by
  dsimp only [Gen.V, Gen.hostOps0]; after_results; rfl

/-- `main_v5` is `main_arg6` narrowed to bf16: on the extended reals, `main_arg6` itself. -/
theorem V_v5 (c : Dev nD) :
    (V (F := Ideal) m c main_v5 : S128x64.Idx → EReal) = (m ((c : Thread nD τ).loc main_arg6) : S128x64.Idx → EReal) := by
  dsimp only [Gen.V, Gen.hostOps0]; after_results; rfl

/-- `main_v7` is `main_arg8` narrowed to bf16: on the extended reals, `main_arg8` itself. -/
theorem V_v7 (c : Dev nD) :
    (V (F := Ideal) m c main_v7 : S64x128.Idx → EReal) = (m ((c : Thread nD τ).loc main_arg8) : S64x128.Idx → EReal) := by
  dsimp only [Gen.V, Gen.hostOps0]; after_results; rfl

/-- `main_v2` is the bias vector `main_arg3` recast to a row. -/
theorem V_v2 (c : Dev nD) :
    (V (F := Ideal) m c main_v2 : S1x256.Idx → EReal)
      = shapeCast S1x256 (m ((c : Thread nD τ).loc main_arg3) : S256.Idx → EReal) shapeCasts_S256_S1x256 := by
  dsimp only [Gen.V, Gen.hostOps0]; after_results; rfl

/-- `main_v4` is the bias vector `main_arg5` recast to a row. -/
theorem V_v4 (c : Dev nD) :
    (V (F := Ideal) m c main_v4 : S1x128.Idx → EReal)
      = shapeCast S1x128 (m ((c : Thread nD τ).loc main_arg5) : S128.Idx → EReal) shapeCasts_S128_S1x128 := by
  dsimp only [Gen.V, Gen.hostOps0]; after_results; rfl

/-- `main_v6` is the bias vector `main_arg7` recast to a row. -/
theorem V_v6 (c : Dev nD) :
    (V (F := Ideal) m c main_v6 : S1x64.Idx → EReal)
      = shapeCast S1x64 (m ((c : Thread nD τ).loc main_arg7) : S64.Idx → EReal) shapeCasts_S64_S1x64 := by
  dsimp only [Gen.V, Gen.hostOps0]; after_results; rfl

/-- `main_v8` is the bias vector `main_arg9` recast to a row. -/
theorem V_v8 (c : Dev nD) :
    (V (F := Ideal) m c main_v8 : S1x128.Idx → EReal)
      = shapeCast S1x128 (m ((c : Thread nD τ).loc main_arg9) : S128.Idx → EReal) shapeCasts_S128_S1x128 := by
  dsimp only [Gen.V, Gen.hostOps0]; after_results; rfl

/-! ## The two together: each window's block as a function of the arguments, on the extended reals -/

theorem blk0_arg (c : Dev nD) (t : Fin cfg0.N) :
    (iblk (F := Ideal) m c 0 t : S4096x512.Idx → EReal) = (m ((c : Thread nD τ).loc main_arg0) : S4096x512.Idx → EReal) :=
  (blk0 (F := Ideal) m c t).trans (V_v0 m c)

theorem blk2_arg (c : Dev nD) (t : Fin cfg0.N) :
    (iblk (F := Ideal) m c 2 t : S512x256.Idx → EReal) = (m ((c : Thread nD τ).loc main_arg2) : S512x256.Idx → EReal) :=
  (blk2 (F := Ideal) m c t).trans (V_v1 m c)

theorem blk3_arg (c : Dev nD) (t : Fin cfg0.N) :
    (iblk (F := Ideal) m c 3 t : S1x256.Idx → EReal) = shapeCast S1x256 (m ((c : Thread nD τ).loc main_arg3) : S256.Idx → EReal) shapeCasts_S256_S1x256 :=
  (blk3 (F := Ideal) m c t).trans (V_v2 m c)

theorem blk4_arg (c : Dev nD) (t : Fin cfg0.N) :
    (iblk (F := Ideal) m c 4 t : S256x128.Idx → EReal) = (m ((c : Thread nD τ).loc main_arg4) : S256x128.Idx → EReal) :=
  (blk4 (F := Ideal) m c t).trans (V_v3 m c)

theorem blk5_arg (c : Dev nD) (t : Fin cfg0.N) :
    (iblk (F := Ideal) m c 5 t : S1x128.Idx → EReal) = shapeCast S1x128 (m ((c : Thread nD τ).loc main_arg5) : S128.Idx → EReal) shapeCasts_S128_S1x128 :=
  (blk5 (F := Ideal) m c t).trans (V_v4 m c)

theorem blk6_arg (c : Dev nD) (t : Fin cfg0.N) :
    (iblk (F := Ideal) m c 6 t : S128x64.Idx → EReal) = (m ((c : Thread nD τ).loc main_arg6) : S128x64.Idx → EReal) :=
  (blk6 (F := Ideal) m c t).trans (V_v5 m c)

theorem blk7_arg (c : Dev nD) (t : Fin cfg0.N) :
    (iblk (F := Ideal) m c 7 t : S1x64.Idx → EReal) = shapeCast S1x64 (m ((c : Thread nD τ).loc main_arg7) : S64.Idx → EReal) shapeCasts_S64_S1x64 :=
  (blk7 (F := Ideal) m c t).trans (V_v6 m c)

theorem blk8_arg (c : Dev nD) (t : Fin cfg0.N) :
    (iblk (F := Ideal) m c 8 t : S64x128.Idx → EReal) = (m ((c : Thread nD τ).loc main_arg8) : S64x128.Idx → EReal) :=
  (blk8 (F := Ideal) m c t).trans (V_v7 m c)

theorem blk9_arg (c : Dev nD) (t : Fin cfg0.N) :
    (iblk (F := Ideal) m c 9 t : S1x128.Idx → EReal) = shapeCast S1x128 (m ((c : Thread nD τ).loc main_arg9) : S128.Idx → EReal) shapeCasts_S128_S1x128 :=
  (blk9 (F := Ideal) m c t).trans (V_v8 m c)

end AtIdeal

end Cert.KernelIdeal.Blocks

end
-- ==== Proof.KIValue.lean ====
/-
  What the kernel's result block holds, at the ideal instance, as a function of the argument arrays: the four-layer graph
  convolution. At the ideal instance rounding is the identity, so the first scratch holds the adjacency itself (row block t
  of it is rows [128t, 128t+128)), the second the product x·W1, and the third, row block by row block, the rectified
  adj·(x·W1) + b1: entry (r, q) of a layer reads row r of the adjacency only, so the row blocks assemble to the whole layer.
  Layers two to four are then the same layer applied to whole arrays.
-/
import proofs.«156455_g48490180772547_cont_8to1_c_629_4_alg».proof.Proof.KIFinal
import proofs.«156455_g48490180772547_cont_8to1_c_629_4_alg».proof.Proof.KernelPay
import proofs.«156455_g48490180772547_cont_8to1_c_629_4_alg».proof.Proof.KIBlocks
import proofs.«156455_g48490180772547_cont_8to1_c_629_4_alg».proof.Proof.GcnSpec

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Gcn Cert.Gcn.Pay Cert.KernelIdeal.Blocks

variable (m : (ℓ : Loc nD τ sig) → Buf (Elt Ideal) ℓ)

/-- Row r of the adjacency is row r mod 128 of its block r / 128. -/
theorem adj_row (c : Dev nD) (r : Fin 4096) (k : Fin 4096) :
    bAdj (F := Ideal) m c (tOf r.val r.isLt) (ix2 ⟨r.val % 128, Nat.mod_lt _ (by norm_num)⟩ k)
      = (m ((c : Thread nD τ).loc main_arg1) : S4096x4096.Idx → EReal) (ix2 r k) := by
  have ht : (tOf r.val r.isLt).val < 32 := by show r.val / 128 < 32; have := r.isLt; omega
  unfold bAdj
  refine (blk1_apply_arg m c (tOf r.val r.isLt) ht ⟨r.val % 128, Nat.mod_lt _ (by norm_num)⟩ k).trans ?_
  refine congrArg (m ((c : Thread nD τ).loc main_arg1) : S4096x4096.Idx → EReal) (funext fun a => Fin.ext ?_)
  match a with
  | ⟨0, _⟩ => show 128 * (r.val / 128) + r.val % 128 = r.val; omega
  | ⟨1, _⟩ => rfl

/-- The first scratch, once every row is stored, is the adjacency. -/
theorem Afull_eq (c : Dev nD) : Afull (F := Ideal) m c = (m ((c : Thread nD τ).loc main_arg1) : S4096x4096.Idx → EReal) := by
  funext y
  obtain ⟨p, q, rfl⟩ : ∃ (p : Fin 4096) (q : Fin 4096), y = ix2 p q := ⟨y 0, y 1, eq_ix2 y⟩
  show k0_pay3 (F := Ideal) (bAdj m c (tOf p.val _)) (ix2 ⟨p.val % 128, _⟩ ⟨q.val, _⟩) = _
  rw [pay3_eq]
  exact adj_row m c p q

/-- The second scratch holds x·W1. -/
theorem G1_eq (c : Dev nD) : G1 (F := Ideal) m c
    = prod (φ₁ := .f32) (φ₂ := .f32) (M := 4096) (K := 512) (N := 256) (m ((c : Thread nD τ).loc main_arg0) : S4096x512.Idx → EReal) (m ((c : Thread nD τ).loc main_arg2) : S512x256.Idx → EReal) := by
  unfold G1 bX bW1
  rw [pay1_eq, blk0_arg m c t0, blk2_arg m c t0]
  rfl

/-- The third scratch, once every row is stored, is the rectified first layer. -/
theorem H1full_eq (c : Dev nD) : H1full (F := Ideal) m c
    = gcnLayer (φA := .f32) (φH := .f32) (φW := .f32) (P := 4096) (N := 4096) (K := 512) (M := 256) (m ((c : Thread nD τ).loc main_arg1) : S4096x4096.Idx → EReal) (m ((c : Thread nD τ).loc main_arg0) : S4096x512.Idx → EReal) (m ((c : Thread nD τ).loc main_arg2) : S512x256.Idx → EReal)
        (shapeCast S1x256 (m ((c : Thread nD τ).loc main_arg3) : S256.Idx → EReal) shapeCasts_S256_S1x256) := by
  funext y
  obtain ⟨p, q, rfl⟩ : ∃ (p : Fin 4096) (q : Fin 256), y = ix2 p q := ⟨y 0, y 1, eq_ix2 y⟩
  show k0_pay4 (F := Ideal) (bAdj m c (tOf p.val _)) (G1 m c) (bB1 m c (tOf p.val _)) (ix2 ⟨p.val % 128, _⟩ ⟨q.val, _⟩) = _
  rw [pay4_eq, G1_eq]
  unfold bB1
  rw [blk3_arg m c]
  exact Idealize.ShloMosaic.ReluMlp.layer_rows (A := 128) (A' := 4096) (K := 4096) (M := 256) _ (m ((c : Thread nD τ).loc main_arg1) : S4096x4096.Idx → EReal) _ _
    ⟨p.val % 128, Nat.mod_lt _ (by norm_num)⟩ p (fun k => adj_row m c p k) q

/-- The result block is the four-layer graph convolution of the argument arrays. -/
theorem outV_eq_gcn (c : Dev nD) : outV (F := Ideal) m c t32
    = gcn (m ((c : Thread nD τ).loc main_arg0) : S4096x512.Idx → EReal) (m ((c : Thread nD τ).loc main_arg1) : S4096x4096.Idx → EReal) (m ((c : Thread nD τ).loc main_arg2) : S512x256.Idx → EReal) (m ((c : Thread nD τ).loc main_arg3) : S256.Idx → EReal) (m ((c : Thread nD τ).loc main_arg4) : S256x128.Idx → EReal) (m ((c : Thread nD τ).loc main_arg5) : S128.Idx → EReal) (m ((c : Thread nD τ).loc main_arg6) : S128x64.Idx → EReal) (m ((c : Thread nD τ).loc main_arg7) : S64.Idx → EReal) (m ((c : Thread nD τ).loc main_arg8) : S64x128.Idx → EReal) (m ((c : Thread nD τ).loc main_arg9) : S128.Idx → EReal) := by
  unfold outV
  rw [pay7_eq, pay6_eq, pay5_eq, pay10_eq, pay9_eq, pay8_eq, Afull_eq, H1full_eq]
  unfold bW2 bB2 bW3 bB3 bW4 bB4
  rw [blk4_arg m c, blk5_arg m c, blk6_arg m c, blk7_arg m c, blk8_arg m c, blk9_arg m c]
  rfl

end Cert.KernelIdeal.Body

end
-- ==== Proof.RefIsGcn.lean ====
/-
  The reference program's result, read over the extended reals, is the four stacked graph-convolution layers.

  The reference computes each layer as `maximum(dot_general(adj, dot_general(h, W)) + bias lifted to the rows, 0)`, the bias
  `[M]` lifted to `[1, M]` and then to `[4096, M]`, the zero a rank-0 array broadcast to the shape. On the extended reals
  `dot_general` is the finite sum over the contracted coordinate, so the inner `dot_general` is the matrix product `h · W`
  and the whole is the rectified dense layer of `adj` against that product, with the bias recast to a row. The four layers
  are read one after the other, each from the one before; nothing is rearranged.
-/
import proofs.«156455_g48490180772547_cont_8to1_c_629_4_alg».proof.Proof.Gen.ReferenceIdeal.Read
import proofs.«156455_g48490180772547_cont_8to1_c_629_4_alg».proof.Proof.GcnSpec

noncomputable section

namespace Cert.Gcn.Ref

open Idealize.ShloMosaic Idealize.ShloMosaic.ValueIdx Cert.ReferenceIdeal Cert.ReferenceIdeal.Gen Cert.ReferenceIdeal.Read

/-! ## The host's two spellings, over any extents -/

variable {P N K M : Nat}

/-- The host's plain `dot_general` is the matrix product. -/
theorem dotGeneral_eq_prod {φ₁ φ₂ : FTy} {d : DotDims ⟨2, ![P, K]⟩ ⟨2, ![K, M]⟩ ⟨2, ![P, M]⟩} (hd : d = DotDims.plain P K M)
    (x : FVec Ideal ⟨2, ![P, K]⟩ φ₁) (w : FVec Ideal ⟨2, ![K, M]⟩ φ₂) :
    Host.dotGeneral d none x w = prod x w := by
  subst hd
  funext i
  exact PlainDot.dotGeneral_apply none .single x w i

/-- The host's rectified layer — `dot_general`, plus the bias lifted to a row and then to the rows, then the maximum with
    the rank-0 zero broadcast to the shape — is the rectified dense layer with the bias recast to a row. -/
theorem layerH_eq {d : DotDims ⟨2, ![P, N]⟩ ⟨2, ![N, M]⟩ ⟨2, ![P, M]⟩} (hd : d = DotDims.plain P N M)
    (h1 : (⟨1, ![M]⟩ : Shape).BroadcastsInDim ⟨2, ![1, M]⟩ ![1])
    (h2 : (⟨2, ![1, M]⟩ : Shape).BroadcastsInDim ⟨2, ![P, M]⟩ ![0, 1])
    (z : (⟨0, ![]⟩ : Shape).BroadcastsInDim ⟨2, ![P, M]⟩ ![])
    (hc : (⟨1, ![M]⟩ : Shape).ShapeCasts ⟨2, ![1, M]⟩)
    (Aa : FVec Ideal ⟨2, ![P, N]⟩ .f32) (G : FVec Ideal ⟨2, ![N, M]⟩ .f32) (b : FVec Ideal ⟨1, ![M]⟩ .f32) :
    maximumf (addf (Host.dotGeneral d none Aa G)
          (broadcastInDim ⟨2, ![P, M]⟩ ![0, 1] h2 (broadcastInDim ⟨2, ![1, M]⟩ ![1] h1 b)))
        (broadcastInDim ⟨2, ![P, M]⟩ ![] z (constant (F := Ideal) ⟨0, ![]⟩ .f32 0x00000000#32))
      = ReluMlp.layer (A := P) (K := N) (M := M) (φw := .f32) Aa G (shapeCast ⟨2, ![1, M]⟩ b hc) := by
  have ht : FTy.bf16.bits < FTy.f32.bits := by decide
  have h := SoftplusLayers.denseH_eq hd h1 h2 ht hc Aa G b
  show ReluMlp.reluV (SoftplusLayers.denseH d h1 h2 Aa G b) = _
  rw [h]
  rfl

/-! ## The reference's four layers, one after the other -/

/-- The first layer: 512 → 256 features. -/
theorem v5_eq (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) :
    val_main_v5 (F := Ideal) x0 x1 x2 x3
      = gcnLayer (φA := .f32) (φH := .f32) (φW := .f32) (P := 4096) (N := 4096) (K := 512) (M := 256) x1 x0 x2 (shapeCast ⟨2, ![1, 256]⟩ x3 casts256) := by
  refine (layerH_eq (d := dot_S4096x4096_S4096x256_S4096x256_1_0_0_1_n_n) rfl bcast_S256_S1x256_1 bcast_S1x256_S4096x256_0_1
    bcast_S_S4096x256 casts256 x1 (val_main_v0 (F := Ideal) x0 x2) x3).trans ?_
  rw [show val_main_v0 (F := Ideal) x0 x2 = prod (φ₁ := .f32) (φ₂ := .f32) (M := 4096) (K := 512) (N := 256) x0 x2
    from dotGeneral_eq_prod rfl x0 x2]
  rfl

/-- The second layer: 256 → 128 features. -/
theorem v11_eq (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) :
    val_main_v11 (F := Ideal) x0 x1 x2 x3 x4 x5
      = gcnLayer (φA := .f32) (φH := .f32) (φW := .f32) (P := 4096) (N := 4096) (K := 256) (M := 128) x1 (gcnLayer (φA := .f32) (φH := .f32) (φW := .f32) (P := 4096) (N := 4096) (K := 512) (M := 256) x1 x0 x2 (shapeCast ⟨2, ![1, 256]⟩ x3 casts256)) x4 (shapeCast ⟨2, ![1, 128]⟩ x5 casts128) := by
  refine (layerH_eq (d := dot_S4096x4096_S4096x128_S4096x128_1_0_0_1_n_n) rfl bcast_S128_S1x128_1 bcast_S1x128_S4096x128_0_1
    bcast_S_S4096x128 casts128 x1 (val_main_v6 (F := Ideal) x0 x1 x2 x3 x4) x5).trans ?_
  rw [show val_main_v6 (F := Ideal) x0 x1 x2 x3 x4
      = prod (φ₁ := .f32) (φ₂ := .f32) (M := 4096) (K := 256) (N := 128) (val_main_v5 (F := Ideal) x0 x1 x2 x3) x4
    from dotGeneral_eq_prod rfl _ x4, v5_eq]
  rfl

/-- The third layer: 128 → 64 features. -/
theorem v17_eq (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) :
    val_main_v17 (F := Ideal) x0 x1 x2 x3 x4 x5 x6 x7
      = gcnLayer (φA := .f32) (φH := .f32) (φW := .f32) (P := 4096) (N := 4096) (K := 128) (M := 64) x1 (gcnLayer (φA := .f32) (φH := .f32) (φW := .f32) (P := 4096) (N := 4096) (K := 256) (M := 128) x1 (gcnLayer (φA := .f32) (φH := .f32) (φW := .f32) (P := 4096) (N := 4096) (K := 512) (M := 256) x1 x0 x2 (shapeCast ⟨2, ![1, 256]⟩ x3 casts256)) x4 (shapeCast ⟨2, ![1, 128]⟩ x5 casts128)) x6 (shapeCast ⟨2, ![1, 64]⟩ x7 casts64) := by
  refine (layerH_eq (d := dot_S4096x4096_S4096x64_S4096x64_1_0_0_1_n_n) rfl bcast_S64_S1x64_1 bcast_S1x64_S4096x64_0_1
    bcast_S_S4096x64 casts64 x1 (val_main_v12 (F := Ideal) x0 x1 x2 x3 x4 x5 x6) x7).trans ?_
  rw [show val_main_v12 (F := Ideal) x0 x1 x2 x3 x4 x5 x6
      = prod (φ₁ := .f32) (φ₂ := .f32) (M := 4096) (K := 128) (N := 64) (val_main_v11 (F := Ideal) x0 x1 x2 x3 x4 x5) x6
    from dotGeneral_eq_prod rfl _ x6, v11_eq]
  rfl

/-- The fourth layer, 64 → 128 features: the reference's result is the four stacked layers. -/
theorem v23_eq (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x128, .f32⟩ : BufTy).Contents (Elt Ideal)) (x9 : (⟨S128, .f32⟩ : BufTy).Contents (Elt Ideal)) :
    val_main_v23 (F := Ideal) x0 x1 x2 x3 x4 x5 x6 x7 x8 x9 = gcn x0 x1 x2 x3 x4 x5 x6 x7 x8 x9 := by
  refine (layerH_eq (d := dot_S4096x4096_S4096x128_S4096x128_1_0_0_1_n_n) rfl bcast_S128_S1x128_1 bcast_S1x128_S4096x128_0_1
    bcast_S_S4096x128 casts128 x1 (val_main_v18 (F := Ideal) x0 x1 x2 x3 x4 x5 x6 x7 x8) x9).trans ?_
  rw [show val_main_v18 (F := Ideal) x0 x1 x2 x3 x4 x5 x6 x7 x8
      = prod (φ₁ := .f32) (φ₂ := .f32) (M := 4096) (K := 64) (N := 128) (val_main_v17 (F := Ideal) x0 x1 x2 x3 x4 x5 x6 x7) x8
    from dotGeneral_eq_prod rfl _ x8, v17_eq]
  rfl

/-- The composed term the reference's run leaves in its result buffer, as a function of the ten argument arrays, is the four
    stacked layers. -/
theorem ref_is_gcn (x0 : (⟨S4096x512, .f32⟩ : BufTy).Contents (Elt Ideal)) (x1 : (⟨S4096x4096, .f32⟩ : BufTy).Contents (Elt Ideal)) (x2 : (⟨S512x256, .f32⟩ : BufTy).Contents (Elt Ideal)) (x3 : (⟨S256, .f32⟩ : BufTy).Contents (Elt Ideal)) (x4 : (⟨S256x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (x8 : (⟨S64x128, .f32⟩ : BufTy).Contents (Elt Ideal)) (x9 : (⟨S128, .f32⟩ : BufTy).Contents (Elt Ideal)) :
    maximumf (addf (Host.dotGeneral (F := Ideal) (φ₁ := .f32) (φ₂ := .f32) dot_S4096x4096_S4096x128_S4096x128_1_0_0_1_n_n none (x1) (Host.dotGeneral (F := Ideal) (φ₁ := .f32) (φ₂ := .f32) dot_S4096x64_S64x128_S4096x128_1_0_0_1_n_n none (maximumf (addf (Host.dotGeneral (F := Ideal) (φ₁ := .f32) (φ₂ := .f32) dot_S4096x4096_S4096x64_S4096x64_1_0_0_1_n_n none (x1) (Host.dotGeneral (F := Ideal) (φ₁ := .f32) (φ₂ := .f32) dot_S4096x128_S128x64_S4096x64_1_0_0_1_n_n none (maximumf (addf (Host.dotGeneral (F := Ideal) (φ₁ := .f32) (φ₂ := .f32) dot_S4096x4096_S4096x128_S4096x128_1_0_0_1_n_n none (x1) (Host.dotGeneral (F := Ideal) (φ₁ := .f32) (φ₂ := .f32) dot_S4096x256_S256x128_S4096x128_1_0_0_1_n_n none (maximumf (addf (Host.dotGeneral (F := Ideal) (φ₁ := .f32) (φ₂ := .f32) dot_S4096x4096_S4096x256_S4096x256_1_0_0_1_n_n none (x1) (Host.dotGeneral (F := Ideal) (φ₁ := .f32) (φ₂ := .f32) dot_S4096x512_S512x256_S4096x256_1_0_0_1_n_n none (x0) (x2))) (broadcastInDim S4096x256 ![0, 1] bcast_S1x256_S4096x256_0_1 (broadcastInDim S1x256 ![1] bcast_S256_S1x256_1 (x3)))) (broadcastInDim S4096x256 ![] bcast_S_S4096x256 (constant S_ .f32 0x00000000#32))) (x4))) (broadcastInDim S4096x128 ![0, 1] bcast_S1x128_S4096x128_0_1 (broadcastInDim S1x128 ![1] bcast_S128_S1x128_1 (x5)))) (broadcastInDim S4096x128 ![] bcast_S_S4096x128 (constant S_ .f32 0x00000000#32))) (x6))) (broadcastInDim S4096x64 ![0, 1] bcast_S1x64_S4096x64_0_1 (broadcastInDim S1x64 ![1] bcast_S64_S1x64_1 (x7)))) (broadcastInDim S4096x64 ![] bcast_S_S4096x64 (constant S_ .f32 0x00000000#32))) (x8))) (broadcastInDim S4096x128 ![0, 1] bcast_S1x128_S4096x128_0_1 (broadcastInDim S1x128 ![1] bcast_S128_S1x128_1 (x9)))) (broadcastInDim S4096x128 ![] bcast_S_S4096x128 (constant S_ .f32 0x00000000#32))
      = gcn x0 x1 x2 x3 x4 x5 x6 x7 x8 x9 :=
  (val_main_v23_eq (F := Ideal) x0 x1 x2 x3 x4 x5 x6 x7 x8 x9).trans (v23_eq x0 x1 x2 x3 x4 x5 x6 x7 x8 x9)

end Cert.Gcn.Ref

end
-- ==== Proof.lean ====
/-
  A fused four-layer graph convolution, h ← max(adj · (h · W_l) + b_l, 0) on 4096 nodes with widths 512 → 256 → 128 → 64 → 128,
  as one kernel over a grid of 33 points, against the plain reference.

  The kernel keeps three scratch buffers between grid points. Point 0 forms x·W1 into the second scratch; each point
  t < 32 rounds rows [128t, 128t + 128) of the adjacency into the first scratch and stores the rectified rows
  adj_t·(x·W1) + b1 into the same rows of the third; point 32 runs layers two to four out of the scratches as whole-array
  products and stores the result block, which is written back at that point only.

  The frames (each program runs to the end, faults nowhere, leaves its arguments unchanged): for the kernel, at the word
  level and at the ideal instance alike, the body is run in its three control cases under a region invariant that carries
  a relation on the scratch contents — the rows already stored hold their blocks' values, the rows not yet stored are
  arbitrary —; the reference's frame is its run with the result dropped.

  The value claim: at the ideal instance rounding to bf16 is the identity and a matrix product into a zero accumulator is
  the finite sum over the contracted index, on the kernel's side and on the host's. Entry (r, q) of a layer reads row r of
  the adjacency only, so the row blocks of layer one assemble to the whole layer; every later step is the same expression
  on both sides. No sum is rearranged and no finiteness is used: both results are one function of the arguments.
  The idealization rewrote no operation, so there is nothing to preserve.
-/
import proofs.«156455_g48490180772547_cont_8to1_c_629_4_alg».proof.Defs
import proofs.«156455_g48490180772547_cont_8to1_c_629_4_alg».proof.Proof.Gen.Kernel
import proofs.«156455_g48490180772547_cont_8to1_c_629_4_alg».proof.Proof.Gen.KernelIdeal
import proofs.«156455_g48490180772547_cont_8to1_c_629_4_alg».proof.Proof.Gen.ReferenceIdeal
import proofs.«156455_g48490180772547_cont_8to1_c_629_4_alg».proof.Proof.Gen.Pre_finite_inputs
import proofs.«156455_g48490180772547_cont_8to1_c_629_4_alg».proof.Proof.Gen.ReferenceIdeal.Read
import proofs.«156455_g48490180772547_cont_8to1_c_629_4_alg».proof.Proof.KWBody
import proofs.«156455_g48490180772547_cont_8to1_c_629_4_alg».proof.Proof.KIValue
import proofs.«156455_g48490180772547_cont_8to1_c_629_4_alg».proof.Proof.RefIsGcn
import Idealize.ShloMosaic.Adequacy
import Idealize.ShloMosaic.Init

noncomputable section

namespace Cert.Proof

open Idealize.ShloMosaic Idealize.SL.Sem

/-- The kernel as printed: it terminates, faults nowhere and leaves its arguments unchanged. -/
theorem frame_kernel : Cert.frame_Kernel (hKernel := Cert.Kernel.Gen.facts) (hPre_finite_inputs := Cert.Pre_finite_inputs.Gen.facts) :=
  fun m ρ _ => Cert.Kernel.Body.frame (F := Bits) m ρ

/-- The same program read at the ideal instance. -/
theorem frame_kernelIdeal : Cert.frame_KernelIdeal (hKernelIdeal := Cert.KernelIdeal.Gen.facts) (hPre_finite_inputs := Cert.Pre_finite_inputs.Gen.facts) :=
  fun m ρ _ => Cert.KernelIdeal.Body.frame (F := Ideal) m ρ

/-- The reference: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs, from memories agreeing on the arguments, end at the four-layer graph convolution of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Body.outV (F := Ideal) m c Cert.KernelIdeal.Body.t32,
    Cert.KernelIdeal.Body.run_value (F := Ideal) m ρ, ?_⟩
  refine (θ_run Cert.ReferenceIdeal.defs _ _).mono
    (fun _ h c => ⟨(h c).1.trans ((Cert.Gcn.Ref.ref_is_gcn _ _ _ _ _ _ _ _ _ _).trans ?_), (h c).2⟩)
    (Cert.ReferenceIdeal.Value.run (F := Ideal) m' ρ')
  obtain ⟨h0, h1, h2, h3, h4, h5, h6, h7, h8, h9⟩ := hagree c
  rw [h0, h1, h2, h3, h4, h5, h6, h7, h8, h9]
  exact (Cert.KernelIdeal.Body.outV_eq_gcn m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
